-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x2048 : Shape := ⟨2, ![32768, 2048]⟩
abbrev S32768 : Shape := ⟨1, ![32768]⟩
abbrev S_ : Shape := ⟨0, ![]⟩

class Facts : Prop where
  bcast_S_S32768x2048 : S_.BroadcastsInDim S32768x2048 (![] : Fin 0 → Fin S32768x2048.rank)
  reducesTo_S32768x2048_S_d0_1 : S32768x2048.ReducesTo [0, 1] S_
  h_S_ : 0 < S_.numel

variable [Facts]

def fn {F : FTy → Type} [FloatOps F] (main_arg0 : FVec F S32768x2048 .f32) (main_arg1 : IVec S32768 32) (main_arg2 : IVec S32768x2048 32) : IVec S_ 1 :=
  let main_v0 : FVec F S32768x2048 .f32 := Host.absf main_arg0
  let main_cst : FVec F S_ .f32 := constant S_ .f32 0x7F800000#32
  let main_v1 : FVec F S32768x2048 .f32 := broadcastInDim S32768x2048 ![] bcast_S_S32768x2048 main_cst
  let main_v2 : IVec S32768x2048 1 := cmpf .olt main_v0 main_v1
  let main_c : IVec S_ 1 := constantI S_ 1 1#1
  let main_v3 : IVec S_ 1 := (fun x v => Host.reduce IntOp.andi x v reducesTo_S32768x2048_S_d0_1 h_S_) main_v2 main_c
  main_v3
-- ==== Kernel.lean ====
abbrev S32768x2048 : Shape := ⟨2, ![32768, 2048]⟩
abbrev S32768 : Shape := ⟨1, ![32768]⟩
abbrev S32768x1 : Shape := ⟨2, ![32768, 1]⟩
abbrev S2x8x128 : Shape := ⟨3, ![2, 8, 128]⟩
abbrev S1024x2048 : Shape := ⟨2, ![1024, 2048]⟩
abbrev S1024x1 : Shape := ⟨2, ![1024, 1]⟩
abbrev S1x8x128 : Shape := ⟨3, ![1, 8, 128]⟩
abbrev S1024 : Shape := ⟨1, ![1024]⟩
abbrev S1x1024x1 : Shape := ⟨3, ![1, 1024, 1]⟩
abbrev S1 : Shape := ⟨1, ![1]⟩
abbrev S1x1x1 : Shape := ⟨3, ![1, 1, 1]⟩
abbrev S2x1x1 : Shape := ⟨3, ![2, 1, 1]⟩
abbrev S2 : Shape := ⟨1, ![2]⟩
abbrev S_ : Shape := ⟨0, ![]⟩

abbrev nBuf : Space → Nat
  | .hbm => 22
  | .vmem => 10
  | .smem => 0
  | _ => 0

abbrev bufTy : (tb : Table) → Fin (tcTables nBuf tb) → BufTy
  | .hbm, ⟨0, _⟩ => ⟨S32768x2048, .f32⟩
  | .hbm, ⟨1, _⟩ => ⟨S32768, .i32⟩
  | .hbm, ⟨2, _⟩ => ⟨S32768x2048, .i32⟩
  | .hbm, ⟨3, _⟩ => ⟨S32768x1, .i32⟩
  | .hbm, ⟨4, _⟩ => ⟨S2x8x128, .f32⟩
  | .hbm, ⟨5, _⟩ => ⟨S2x8x128, .f32⟩
  | .hbm, ⟨6, _⟩ => ⟨S2x1x1, .f32⟩
  | .hbm, ⟨7, _⟩ => ⟨S2, .f32⟩
  | .hbm, ⟨8, _⟩ => ⟨S_, .f32⟩
  | .hbm, ⟨9, _⟩ => ⟨S_, .f32⟩
  | .hbm, ⟨10, _⟩ => ⟨S2x1x1, .f32⟩
  | .hbm, ⟨11, _⟩ => ⟨S2, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .i1⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .local _ .vmem, ⟨0, _⟩ => ⟨S1024x2048, .f32⟩
  | .local _ .vmem, ⟨1, _⟩ => ⟨S1024x2048, .f32⟩
  | .local _ .vmem, ⟨2, _⟩ => ⟨S1024x2048, .i32⟩
  | .local _ .vmem, ⟨3, _⟩ => ⟨S1024x2048, .i32⟩
  | .local _ .vmem, ⟨4, _⟩ => ⟨S1024x1, .i32⟩
  | .local _ .vmem, ⟨5, _⟩ => ⟨S1024x1, .i32⟩
  | .local _ .vmem, ⟨6, _⟩ => ⟨S1x8x128, .f32⟩
  | .local _ .vmem, ⟨7, _⟩ => ⟨S1x8x128, .f32⟩
  | .local _ .vmem, ⟨8, _⟩ => ⟨S1x8x128, .f32⟩
  | .local _ .vmem, ⟨9, _⟩ => ⟨S1x8x128, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_call0_v0 : Ref sig .tc := ⟨.hbm, 20, rfl⟩
abbrev main_v11 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S32768_S32768x1 : S32768.ShapeCasts S32768x1
  inb_S1x8x128_S1x8x128_0_0_0 : ∀ a, (![0, 0, 0] : Fin 3 → Nat) a + S1x8x128.size a ≤ S1x8x128.size a
  h_S1x8x128 : 0 < S1x8x128.numel
  inb_S1024x2048_S1024x2048_0_0 : ∀ a, (![0, 0] : Fin 2 → Nat) a + S1024x2048.size a ≤ S1024x2048.size a
  h_S1024x2048 : 0 < S1024x2048.numel
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  iota_S1024x2048_d1_w32 : S1024x2048.Iotas .tc 32 [1]
  broadcasts_S1024x1_S1024x2048 : S1024x1.Broadcasts S1024x2048
  reduces_S1024x2048_S1024 : S1024x2048.Reduces [1] S1024
  shapeCasts_S1024_S1024x1 : S1024.ShapeCasts S1024x1
  natLt_1_32 : 1 < 32
  shapeCasts_S1024x1_S1x1024x1 : S1024x1.ShapeCasts S1x1024x1
  reduces_S1x1024x1_S1 : S1x1024x1.Reduces [1, 2] S1
  shapeCasts_S1_S1x1x1 : S1.ShapeCasts S1x1x1
  inpos_S1x1x1_p0_0_0 : ∀ a, (![0, 0, 0] : Fin 3 → Nat) a < S1x1x1.size a
  shapeCasts_S1x8x128_S1x8x128 : S1x8x128.ShapeCasts S1x8x128
  slices_S2x8x128_S2x1x1_0_0_0 : S2x8x128.Slices ![0, 0, 0] S2x1x1
  shapeCasts_S2x1x1_S2 : S2x1x1.ShapeCasts S2
  reducesTo_S2_S_d0 : S2.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S32768x2048.size a
  hwx0_0 : ∀ i : grid0.Coords, EltTy.bits .f32 = 32 ∨ (Rect.block (s := S32768x2048) S1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S32768x2048.size a
  hwx0_1 : ∀ i : grid0.Coords, EltTy.bits .i32 = 32 ∨ (Rect.block (s := S32768x2048) S1024x2048.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S32768x1.size a
  hwx0_2 : ∀ i : grid0.Coords, EltTy.bits .i32 = 32 ∨ (Rect.block (s := S32768x1) S1024x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8x128.size a ≤ S2x8x128.size a
  hwx0_3 : ∀ i : grid0.Coords, EltTy.bits .f32 = 32 ∨ (Rect.block (s := S2x8x128) S1x8x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x8x128.size a ≤ S2x8x128.size a
  hwx0_4 : ∀ i : grid0.Coords, EltTy.bits .f32 = 32 ∨ (Rect.block (s := S2x8x128) S1x8x128.size (cc0_transform_4 i) (hinb0_4 i)).WholeWords (EltTy.packing .f32)

variable [Facts₀]

abbrev win0_0 : Pipeline.Window sig grid0 :=
  Pipeline.Window.ofSpec (Memref.whole main_arg0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_0) S1x8x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_1) S1x8x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32768x2048 : Shape := ⟨2, ![32768, 2048]⟩
abbrev S32768 : Shape := ⟨1, ![32768]⟩
abbrev S2048 : Shape := ⟨1, ![2048]⟩
abbrev S1x2048 : Shape := ⟨2, ![1, 2048]⟩
abbrev S32768x1 : Shape := ⟨2, ![32768, 1]⟩
abbrev S_ : Shape := ⟨0, ![]⟩

abbrev nBuf : Space → Nat
  | .hbm => 76
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S32768, .i32⟩
  | .hbm, ⟨2, _⟩ => ⟨S32768x2048, .i32⟩
  | .hbm, ⟨3, _⟩ => ⟨S2048, .i32⟩
  | .hbm, ⟨4, _⟩ => ⟨S1x2048, .i32⟩
  | .hbm, ⟨5, _⟩ => ⟨S32768x1, .i32⟩
  | .hbm, ⟨6, _⟩ => ⟨S32768x2048, .i32⟩
  | .hbm, ⟨7, _⟩ => ⟨S32768x2048, .i32⟩
  | .hbm, ⟨8, _⟩ => ⟨S32768x2048, .i1⟩
  | .hbm, ⟨9, _⟩ => ⟨S_, .i32⟩
  | .hbm, ⟨10, _⟩ => ⟨S32768x2048, .i32⟩
  | .hbm, ⟨11, _⟩ => ⟨S32768x2048, .i1⟩
  | .hbm, ⟨12, _⟩ => ⟨S32768x2048, .i1⟩
  | .hbm, ⟨13, _⟩ => ⟨S_, .i32⟩
  | .hbm, ⟨14, _⟩ => ⟨S32768x2048, .i32⟩
  | .hbm, ⟨15, _⟩ => ⟨S32768x2048, .i1⟩
  | .hbm, ⟨16, _⟩ => ⟨S32768x2048, .i1⟩
  | .hbm, ⟨17, _⟩ => ⟨S_, .i1⟩
  | .hbm, ⟨18, _⟩ => ⟨S32768, .i1⟩
  | .hbm, ⟨19, _⟩ => ⟨S_, .i1⟩
  | .hbm, ⟨20, _⟩ => ⟨S32768, .i1⟩
  | .hbm, ⟨21, _⟩ => ⟨S_, .f32⟩
  | .hbm, ⟨22, _⟩ => ⟨S_, .f32⟩
  | .hbm, ⟨23, _⟩ => ⟨S32768x2048, .f32⟩
  | .hbm, ⟨24, _⟩ => ⟨S32768x2048, .f32⟩
  | .hbm, ⟨25, _⟩ => ⟨S_, .f32⟩
  | .hbm, ⟨26, _⟩ => ⟨S32768, .f32⟩
  | .hbm, ⟨27, _⟩ => ⟨S_, .f32⟩
  | .hbm, ⟨28, _⟩ => ⟨S_, .f32⟩
  | .hbm, ⟨29, _⟩ => ⟨S32768, .f32⟩
  | .hbm, ⟨30, _⟩ => ⟨S32768, .f32⟩
  | .hbm, ⟨31, _⟩ => ⟨S_, .f32⟩
  | .hbm, ⟨32, _⟩ => ⟨S32768x2048, .f32⟩
  | .hbm, ⟨33, _⟩ => ⟨S32768x2048, .f32⟩
  | .hbm, ⟨34, _⟩ => ⟨S32768x1, .f32⟩
  | .hbm, ⟨35, _⟩ => ⟨S32768x2048, .f32⟩
  | .hbm, ⟨36, _⟩ => ⟨S32768x2048, .f32⟩
  | .hbm, ⟨37, _⟩ => ⟨S_, .f32⟩
  | .hbm, ⟨38, _⟩ => ⟨S32768x2048, .f32⟩
  | .hbm, ⟨39, _⟩ => ⟨S32768x2048, .f32⟩
  | .hbm, ⟨40, _⟩ => ⟨S32768x2048, .i32⟩
  | .hbm, ⟨41, _⟩ => ⟨S_, .i32⟩
  | .hbm, ⟨42, _⟩ => ⟨S32768, .i32⟩
  | .hbm, ⟨43, _⟩ => ⟨S_, .f32⟩
  | .hbm, ⟨44, _⟩ => ⟨S_, .f32⟩
  | .hbm, ⟨45, _⟩ => ⟨S32768x2048, .f32⟩
  | .hbm, ⟨46, _⟩ => ⟨S32768x2048, .f32⟩
  | .hbm, ⟨47, _⟩ => ⟨S_, .f32⟩
  | .hbm, ⟨48, _⟩ => ⟨S32768, .f32⟩
  | .hbm, ⟨49, _⟩ => ⟨S_, .i32⟩
  | .hbm, ⟨50, _⟩ => ⟨S32768, .i32⟩
  | .hbm, ⟨51, _⟩ => ⟨S32768, .i32⟩
  | .hbm, ⟨52, _⟩ => ⟨S32768, .f32⟩
  | .hbm, ⟨53, _⟩ => ⟨S32768, .f32⟩
  | .hbm, ⟨54, _⟩ => ⟨S_, .i32⟩
  | .hbm, ⟨55, _⟩ => ⟨S32768, .i32⟩
  | .hbm, ⟨56, _⟩ => ⟨S32768, .i1⟩
  | .hbm, ⟨57, _⟩ => ⟨S32768, .i1⟩
  | .hbm, ⟨58, _⟩ => ⟨S32768, .i32⟩
  | .hbm, ⟨59, _⟩ => ⟨S_, .i32⟩
  | .hbm, ⟨60, _⟩ => ⟨S_, .i32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S32768, .f32⟩
  | .hbm, ⟨65, _⟩ => ⟨S32768, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .i1⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c_1 : Ref sig .tc := ⟨.hbm, 17, rfl⟩
abbrev main_v12 : Ref sig .tc := ⟨.hbm, 18, rfl⟩
abbrev main_c_2 : Ref sig .tc := ⟨.hbm, 19, rfl⟩
abbrev main_v13 : Ref sig .tc := ⟨.hbm, 20, rfl⟩
abbrev main_cst : Ref sig .tc := ⟨.hbm, 21, rfl⟩
abbrev main_call0_v0 : Ref sig .tc := ⟨.hbm, 22, rfl⟩
abbrev main_call0_v1 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_cst_4 : Ref sig .tc := ⟨.hbm, 27, rfl⟩
abbrev main_call1_v0 : Ref sig .tc := ⟨.hbm, 28, rfl⟩
abbrev main_call1_v1 : Ref sig .tc := ⟨.hbm, 29, rfl⟩
abbrev main_v16 : Ref sig .tc := ⟨.hbm, 30, rfl⟩
abbrev main_cst_5 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_6 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_c_7 : Ref sig .tc := ⟨.hbm, 41, rfl⟩
abbrev main_v25 : Ref sig .tc := ⟨.hbm, 42, rfl⟩
abbrev main_cst_8 : Ref sig .tc := ⟨.hbm, 43, rfl⟩
abbrev main_call2_v0 : Ref sig .tc := ⟨.hbm, 44, rfl⟩
abbrev main_call2_v1 : Ref sig .tc := ⟨.hbm, 45, rfl⟩
abbrev main_v26 : Ref sig .tc := ⟨.hbm, 46, rfl⟩
abbrev main_cst_9 : Ref sig .tc := ⟨.hbm, 47, rfl⟩
abbrev main_v27 : Ref sig .tc := ⟨.hbm, 48, rfl⟩
abbrev main_c_10 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_c_11 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_c_12 : Ref sig .tc := ⟨.hbm, 59, rfl⟩
abbrev main_v36 : Ref sig .tc := ⟨.hbm, 60, rfl⟩
abbrev main_v37 : Ref sig .tc := ⟨.hbm, 61, rfl⟩
abbrev main_cst_13 : Ref sig .tc := ⟨.hbm, 62, rfl⟩
abbrev main_call3_v0 : Ref sig .tc := ⟨.hbm, 63, rfl⟩
abbrev main_call3_v1 : Ref sig .tc := ⟨.hbm, 64, rfl⟩
abbrev main_v38 : Ref sig .tc := ⟨.hbm, 65, rfl⟩
abbrev main_cst_14 : Ref sig .tc := ⟨.hbm, 66, rfl⟩
abbrev main_v39 : Ref sig .tc := ⟨.hbm, 67, rfl⟩
abbrev main_cst_15 : Ref sig .tc := ⟨.hbm, 68, rfl⟩
abbrev main_v40 : Ref sig .tc := ⟨.hbm, 69, rfl⟩
abbrev main_cst_16 : Ref sig .tc := ⟨.hbm, 70, rfl⟩
abbrev main_v41 : Ref sig .tc := ⟨.hbm, 71, rfl⟩
abbrev main_v42 : Ref sig .tc := ⟨.hbm, 72, rfl⟩
abbrev main_cst_17 : Ref sig .tc := ⟨.hbm, 73, rfl⟩
abbrev main_call4_v0 : Ref sig .tc := ⟨.hbm, 74, rfl⟩
abbrev main_v43 : Ref sig .tc := ⟨.hbm, 75, rfl⟩

abbrev nD : Nat := 1
abbrev τ : Topo := Topo.v7x

variable {F : FTy → Type} [FloatOps F]

class Facts₀ : Prop where
  bcast_S2048_S1x2048_1 : S2048.BroadcastsInDim S1x2048 (![1] : Fin 1 → Fin S1x2048.rank)
  bcast_S32768_S32768x1_0 : S32768.BroadcastsInDim S32768x1 (![0] : Fin 1 → Fin S32768x1.rank)
  bcast_S1x2048_S32768x2048_0_1 : S1x2048.BroadcastsInDim S32768x2048 (![0, 1] : Fin 2 → Fin S32768x2048.rank)
  bcast_S32768x1_S32768x2048_0_1 : S32768x1.BroadcastsInDim S32768x2048 (![0, 1] : Fin 2 → Fin S32768x2048.rank)
  bcast_S_S32768x2048 : S_.BroadcastsInDim S32768x2048 (![] : Fin 0 → Fin S32768x2048.rank)
  reducesTo_S32768x2048_S32768_d1 : S32768x2048.ReducesTo [1] S32768
  h_S_ : 0 < S_.numel
  bcast_S_S32768 : S_.BroadcastsInDim S32768 (![] : Fin 0 → Fin S32768.rank)
  natLt_1_32 : 1 < 32
  reducesTo_S32768_S_d0 : S32768.ReducesTo [0] S_

variable [Facts₀]

class Facts : Prop extends Facts₀ where

variable [Facts]
-- ==== Proof.Spec.lean ====
import Idealize.ShloMosaic.PureOps.Ideal
import Idealize.ShloMosaic.PureOps.Ideal.Laws
import Idealize.ShloMosaic.Lib.ValueIdx

/-!
The mathematics of the ranking hinge loss, stated once over plain index types.

An array of `32768` rows of `2048` lanes carries a score (an extended real) and an integer label per lane,
and a candidate length per row.  Lane `l` of a row is *valid* when `l` is below the row's length; a valid lane
labelled `1` is a *positive*, a valid lane labelled `0` a *negative*.  A row contributes the mean, over its
negatives, of `max (margin + score - chosen) 0`, where `chosen` is the sum of the positive scores (or minus the
margin when the row has no positive); rows of length `0` or without a negative contribute nothing.  The result
is the mean contribution over the contributing rows, and `0` when there is none.

Two spellings of that number are given: `tiled` (rows grouped in `32` blocks of `1024`, the blocks accumulated in two
groups of `16`, "some lane is set" decided by a maximum of `0/1` indicators, lanes counted by a sum of `0/1`
reals) and `flat` (all rows at once, "some lane is set" by a disjunction of bits, lanes counted by an integer
sum).  `tiled_eq_flat` says they are the same extended real.
-/

noncomputable section

open scoped BigOperators

namespace Cert.Spec

open Idealize.ShloMosaic

/-- The float literals of both programs: `0`, `1`, the margin, minus the margin, and minus infinity. -/
abbrev z : EReal := Ideal.ofBits .f32 0x00000000#32
abbrev one : EReal := Ideal.ofBits .f32 0x3F800000#32
abbrev mrg : EReal := Ideal.ofBits .f32 0x3DCCCCCD#32
abbrev nmrg : EReal := Ideal.ofBits .f32 0xBDCCCCCD#32
abbrev ninf : EReal := Ideal.ofBits .f32 0xFF800000#32

/-- An integer word read as a real (signed). -/
abbrev ofInt32 (b : BitVec 32) : EReal := ((b.toInt : ℝ) : EReal)

/-- Lane `l` lies below the row's candidate length `cl` (signed comparison of 32-bit words). -/
def vld (cl : BitVec 32) (l : Fin 2048) : BitVec 1 := IntOp.cmpi .slt (BitVec.ofNat 32 l.val) cl
/-- Lane `l` is a positive: labelled `1` and valid. -/
def posb (cl : BitVec 32) (lab : Fin 2048 → BitVec 32) (l : Fin 2048) : BitVec 1 :=
  IntOp.andi (IntOp.cmpi .eq (lab l) 1#32) (vld cl l)
/-- Lane `l` is a negative: labelled `0` and valid. -/
def negb (cl : BitVec 32) (lab : Fin 2048 → BitVec 32) (l : Fin 2048) : BitVec 1 :=
  IntOp.andi (IntOp.cmpi .eq (lab l) 0#32) (vld cl l)

/-- "Some lane of the mask is set", as the maximum of the lanes' `0/1` indicators (from minus infinity) compared with `0`. -/
def anyMax (b : Fin 2048 → BitVec 1) : BitVec 1 :=
  Ideal.cmp .ogt ((Finset.univ : Finset (Fin 2048)).fold max ninf (fun l => Scalar.select (b l) one z)) z
/-- "Some lane of the mask is set", as the disjunction of the lanes' bits. -/
def anyOr (b : Fin 2048 → BitVec 1) : BitVec 1 :=
  (Finset.univ : Finset (Fin 2048)).fold IntOp.ori 0#1 b

/-- The hinge numerator of a row: the sum over its negatives of `max (margin + score - chosen) 0`. -/
def hingeSum (chosen : EReal) (cl : BitVec 32) (sc : Fin 2048 → EReal) (lab : Fin 2048 → BitVec 32) : EReal :=
  ∑ l : Fin 2048, Scalar.select (negb cl lab l) (max ((mrg + sc l) - chosen) z) z
/-- The sum of a row's positive scores. -/
def posSum (cl : BitVec 32) (sc : Fin 2048 → EReal) (lab : Fin 2048 → BitVec 32) : EReal :=
  ∑ l : Fin 2048, Scalar.select (posb cl lab l) (sc l) z

/-! ### The tiled spelling -/

/-- Whether a row contributes: positive length and some negative (maximum form). -/
def obsT (cl : BitVec 32) (lab : Fin 2048 → BitVec 32) : BitVec 1 :=
  IntOp.andi (IntOp.cmpi .sgt cl 0#32) (anyMax (negb cl lab))
/-- A row's contribution, tiled spelling. -/
def rowT (cl : BitVec 32) (sc : Fin 2048 → EReal) (lab : Fin 2048 → BitVec 32) : EReal :=
  Scalar.select (obsT cl lab)
    (Ideal.div (hingeSum (Scalar.select (anyMax (posb cl lab)) (posSum cl sc lab) nmrg) cl sc lab)
      (max (∑ l : Fin 2048, ofInt32 ((negb cl lab l).setWidth 32)) one))
    z
/-- A row's `0/1` count, tiled spelling. -/
def cntT (cl : BitVec 32) (lab : Fin 2048 → BitVec 32) : EReal := ofInt32 ((obsT cl lab).setWidth 32)

/-- Row `r` of block `t`. -/
def brow (t : Fin 32) (r : Fin 1024) : Fin 32768 := ⟨t.val * 1024 + r.val, by have := t.isLt; have := r.isLt; omega⟩

/-- Block `n`'s total contribution and count (zero past the last block). -/
def blkTot (c : Fin 32768 → BitVec 32) (s : Fin 32768 → Fin 2048 → EReal) (lab : Fin 32768 → Fin 2048 → BitVec 32) (n : ℕ) : EReal :=
  if h : n < 32 then ∑ r : Fin 1024, rowT (c (brow ⟨n, h⟩ r)) (s (brow ⟨n, h⟩ r)) (lab (brow ⟨n, h⟩ r)) else 0
def blkCnt (c : Fin 32768 → BitVec 32) (lab : Fin 32768 → Fin 2048 → BitVec 32) (n : ℕ) : EReal :=
  if h : n < 32 then ∑ r : Fin 1024, cntT (c (brow ⟨n, h⟩ r)) (lab (brow ⟨n, h⟩ r)) else 0

/-- The running sum of the blocks within a group of `16`: restarted from `0` at the first block of a group. -/
def accum (B : ℕ → EReal) : ℕ → EReal
  | 0 => z + B 0
  | n + 1 => if (n + 1) % 16 = 0 then z + B (n + 1) else accum B n + B (n + 1)

/-- The final quotient from the two groups' totals and counts. -/
def finish (T N : EReal) : EReal := Scalar.select (Ideal.cmp .ogt N z) (Ideal.div T (max N one)) z

/-- The tiled spelling of the result. -/
def tiled (s : Fin 32768 → Fin 2048 → EReal) (c : Fin 32768 → BitVec 32) (lab : Fin 32768 → Fin 2048 → BitVec 32) : EReal :=
  finish (z + (accum (blkTot c s lab) 15 + accum (blkTot c s lab) 31))
    (z + (accum (blkCnt c lab) 15 + accum (blkCnt c lab) 31))

/-! ### The flat spelling -/

/-- Whether a row contributes (disjunction form). -/
def obsF (cl : BitVec 32) (lab : Fin 2048 → BitVec 32) : BitVec 1 :=
  IntOp.andi (IntOp.cmpi .sgt cl 0#32) (anyOr (negb cl lab))
/-- A row's mean hinge, flat spelling: sums start from the literal `0`, the negatives are counted in integers. -/
def meanF (cl : BitVec 32) (sc : Fin 2048 → EReal) (lab : Fin 2048 → BitVec 32) : EReal :=
  Ideal.div (z + hingeSum (Scalar.select (anyOr (posb cl lab)) (z + posSum cl sc lab) nmrg) cl sc lab)
    (ofInt32 (IntOp.maxsi ((Finset.univ : Finset (Fin 2048)).fold IntOp.addi 0#32 (fun l => (negb cl lab l).setWidth 32)) 1#32))

/-- The flat spelling of the result. -/
def flat (s : Fin 32768 → Fin 2048 → EReal) (c : Fin 32768 → BitVec 32) (lab : Fin 32768 → Fin 2048 → BitVec 32) : EReal :=
  finish (z + ∑ r : Fin 32768, Scalar.select (obsF (c r) (lab r)) (meanF (c r) (s r) (lab r)) z)
    (ofInt32 ((Finset.univ : Finset (Fin 32768)).fold IntOp.addi 0#32 (fun r => (obsF (c r) (lab r)).setWidth 32)))

end Cert.Spec

end
-- ==== Proof.SpecLaws.lean ====
import proofs.«158513_j39041252721038_1_alg».proof.Proof.Spec
import Mathlib.Algebra.BigOperators.Intervals
import Mathlib.Data.Finset.Fold

/-!
The two spellings of the ranking hinge loss are one extended real.
-/

noncomputable section

open scoped BigOperators

namespace Cert.Spec

open Idealize.ShloMosaic

/-! ### The literals -/

theorem z_eq : z = 0 := Ideal.ofBits_zero_f32
theorem one_eq : one = 1 := IdealRules.sign_bit.ideal_onePat .f32
theorem ninf_eq : ninf = ⊥ := by simp [ninf, Ideal.ofBits, Ideal.ieee]

/-! ### One-bit words -/

theorem bit_cases (a : BitVec 1) : a = 0#1 ∨ a = 1#1 := by
  rcases BitVec.eq_zero_or_eq_one a with h | h
  · exact Or.inl h
  · exact Or.inr h

theorem select_eq_ite {α : Type} (c : BitVec 1) (a b : α) : Scalar.select c a b = if c = 1#1 then a else b := rfl

/-- A one-bit word widened to 32 bits and read as a signed integer is `1` or `0`. -/
theorem ofInt32_setWidth (a : BitVec 1) : ofInt32 (a.setWidth 32) = if a = 1#1 then (1 : EReal) else 0 := by
  rcases bit_cases a with h | h <;> subst h
  · have : ((0#1 : BitVec 1).setWidth 32).toInt = 0 := by decide
    simp [ofInt32, this]
  · have : ((1#1 : BitVec 1).setWidth 32).toInt = 1 := by decide
    simp [ofInt32, this]

theorem toNat_setWidth (a : BitVec 1) : (a.setWidth 32).toNat = if a = 1#1 then 1 else 0 := by
  rcases bit_cases a with h | h <;> subst h <;> decide

/-! ### "Some lane is set": the maximum of indicators against the disjunction of bits -/

theorem fold_ori_eq_one {ι : Type} (s : Finset ι) (b : ι → BitVec 1) :
    s.fold IntOp.ori 0#1 b = 1#1 ↔ ∃ i ∈ s, b i = 1#1 := by
  classical
  induction s using Finset.induction_on with
  | empty => simp
  | insert a s ha ih =>
    rw [Finset.fold_insert ha]
    have key : ∀ x y : BitVec 1, IntOp.ori x y = 1#1 ↔ x = 1#1 ∨ y = 1#1 := by decide
    rw [key, ih]
    simp [Finset.exists_mem_insert]

theorem anyMax_eq_anyOr (b : Fin 2048 → BitVec 1) : anyMax b = anyOr b := by
  have hR : anyOr b = if ∃ l, b l = 1#1 then 1#1 else 0#1 := by
    unfold anyOr
    by_cases h : ∃ l, b l = 1#1
    · rw [if_pos h]; exact (fold_ori_eq_one _ b).2 (by simpa using h)
    · rw [if_neg h]
      rcases bit_cases (Finset.univ.fold IntOp.ori 0#1 b) with h0 | h1
      · exact h0
      · exact absurd (by simpa using (fold_ori_eq_one _ b).1 h1) h
  have hL : anyMax b = if ∃ l, b l = 1#1 then 1#1 else 0#1 := by
    unfold anyMax Ideal.cmp
    have : (z < (Finset.univ : Finset (Fin 2048)).fold max ninf (fun l => Scalar.select (b l) one z)) ↔ ∃ l, b l = 1#1 := by
      rw [Finset.lt_fold_max, z_eq, one_eq, ninf_eq]
      constructor
      · rintro (h | ⟨l, _, h⟩)
        · exact absurd h (by simp)
        · refine ⟨l, ?_⟩
          rcases bit_cases (b l) with h0 | h1
          · rw [h0, select_eq_ite] at h; simp at h
          · exact h1
      · rintro ⟨l, hl⟩
        exact Or.inr ⟨l, Finset.mem_univ _, by rw [hl, select_eq_ite]; simp⟩
    by_cases h : ∃ l, b l = 1#1
    · rw [if_pos h]
      show BitVec.ofBool (decide (z < _)) = 1#1
      rw [decide_eq_true (this.2 h)]; rfl
    · rw [if_neg h]
      show BitVec.ofBool (decide (z < _)) = 0#1
      rw [decide_eq_false (fun hh => h (this.1 hh))]; rfl
  rw [hL, hR]

/-! ### Counting set bits: a sum of `0/1` reals against an integer sum -/

/-- The number of set bits of a mask. -/
def cnt {ι : Type} [Fintype ι] (b : ι → BitVec 1) : ℕ := (Finset.univ.filter fun i => b i = 1#1).card

theorem cnt_le {ι : Type} [Fintype ι] (b : ι → BitVec 1) : cnt b ≤ Fintype.card ι := by
  unfold cnt; exact Finset.card_le_univ _

/-- The coercion of reals into extended reals commutes with finite sums. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The sum of the bits, each read as the real `0` or `1`, is the number of set bits. -/
theorem sum_ofInt32 {ι : Type} [Fintype ι] (b : ι → BitVec 1) :
    ∑ i, ofInt32 ((b i).setWidth 32) = ((cnt b : ℝ) : EReal) := by
  have h : ∀ i, ofInt32 ((b i).setWidth 32) = (((if b i = 1#1 then 1 else 0 : ℝ)) : EReal) := by
    intro i; rw [ofInt32_setWidth]; split <;> simp
  simp only [h]
  rw [coe_sum, Finset.sum_boole]
  rfl

/-- A 32-bit sum of words is the word of the sum of their values. -/
theorem fold_addi {ι : Type} (s : Finset ι) (g : ι → BitVec 32) :
    s.fold IntOp.addi 0#32 g = BitVec.ofNat 32 (∑ i ∈ s, (g i).toNat) := by
  classical
  induction s using Finset.induction_on with
  | empty => simp
  | insert a s ha ih =>
    rw [Finset.fold_insert ha, Finset.sum_insert ha, ih]
    show g a + BitVec.ofNat 32 _ = _
    apply BitVec.eq_of_toNat_eq
    rw [BitVec.toNat_add, BitVec.toNat_ofNat, BitVec.toNat_ofNat]
    generalize (∑ i ∈ s, (g i).toNat) = n
    omega

/-- The 32-bit sum of the widened bits is the word of the number of set bits. -/
theorem fold_addi_bits {ι : Type} [Fintype ι] (b : ι → BitVec 1) :
    (Finset.univ : Finset ι).fold IntOp.addi 0#32 (fun i => (b i).setWidth 32) = BitVec.ofNat 32 (cnt b) := by
  rw [fold_addi]
  congr 1
  simp only [toNat_setWidth]
  rw [Finset.sum_boole]
  rfl

/-- A small natural number survives the passage through a signed 32-bit word. -/
theorem toInt_ofNat_small (n : ℕ) (h : n < 2147483648) : (BitVec.ofNat 32 n).toInt = n := by
  rw [BitVec.toInt_eq_toNat_cond, BitVec.toNat_ofNat]
  split <;> omega

theorem ofInt32_ofNat (n : ℕ) (h : n < 2147483648) : ofInt32 (BitVec.ofNat 32 n) = ((n : ℝ) : EReal) := by
  unfold ofInt32; rw [toInt_ofNat_small n h]; simp

/-- The signed maximum with `1`, read as a real, is the maximum of the reals. -/
theorem ofInt32_maxsi (n : ℕ) (h : n < 2147483648) :
    ofInt32 (IntOp.maxsi (BitVec.ofNat 32 n) 1#32) = max ((n : ℝ) : EReal) 1 := by
  have h1 : (1#32 : BitVec 32).toInt = 1 := by decide
  have hn := toInt_ofNat_small n h
  unfold IntOp.maxsi
  by_cases hlt : 1 < n
  · have hs : (1#32 : BitVec 32).slt (BitVec.ofNat 32 n) = true := by
      rw [BitVec.slt, h1, hn]; exact decide_eq_true (by exact_mod_cast hlt)
    rw [if_pos hs, ofInt32_ofNat n h]
    have : (1 : EReal) ≤ ((n : ℝ) : EReal) := by
      have : (1 : ℝ) ≤ (n : ℝ) := by exact_mod_cast hlt.le
      exact_mod_cast this
    exact (max_eq_left this).symm
  · have hs : ¬ ((1#32 : BitVec 32).slt (BitVec.ofNat 32 n) = true) := by
      rw [BitVec.slt, h1, hn]; simp; omega
    rw [if_neg hs]
    have h1' : ofInt32 1#32 = 1 := by unfold ofInt32; rw [h1]; simp
    rw [h1']
    have : ((n : ℝ) : EReal) ≤ 1 := by
      have : (n : ℝ) ≤ 1 := by exact_mod_cast (not_lt.mp hlt)
      exact_mod_cast this
    exact (max_eq_right this).symm

/-! ### One row: the two spellings agree -/

theorem obsT_eq (cl : BitVec 32) (lab : Fin 2048 → BitVec 32) : obsT cl lab = obsF cl lab := by
  unfold obsT obsF; rw [anyMax_eq_anyOr]

theorem cnt_lane_lt (b : Fin 2048 → BitVec 1) : cnt b < 2147483648 := by
  have := cnt_le b; rw [Fintype.card_fin] at this; omega

theorem cnt_row_lt (b : Fin 32768 → BitVec 1) : cnt b < 2147483648 := by
  have := cnt_le b; rw [Fintype.card_fin] at this; omega

/-- A row's contribution: the mean over the negatives, whichever way they are found and counted. -/
theorem rowT_eq (cl : BitVec 32) (sc : Fin 2048 → EReal) (lab : Fin 2048 → BitVec 32) :
    rowT cl sc lab = Scalar.select (obsF cl lab) (meanF cl sc lab) z := by
  unfold rowT meanF
  rw [obsT_eq, anyMax_eq_anyOr, sum_ofInt32 (negb cl lab), fold_addi_bits (negb cl lab),
    ofInt32_maxsi _ (cnt_lane_lt _), one_eq, z_eq, zero_add, zero_add]

theorem cntT_eq (cl : BitVec 32) (lab : Fin 2048 → BitVec 32) : cntT cl lab = ofInt32 ((obsF cl lab).setWidth 32) := by
  unfold cntT; rw [obsT_eq]

/-! ### Regrouping the rows: 32 blocks of 1024, accumulated in two groups of 16 -/

/-- A row is a block and a row of the block. -/
def blkEquiv : Fin 32 × Fin 1024 ≃ Fin 32768 where
  toFun p := brow p.1 p.2
  invFun r := (⟨r.val / 1024, by have := r.isLt; omega⟩, ⟨r.val % 1024, Nat.mod_lt _ (by decide)⟩)
  left_inv p := by
    obtain ⟨⟨a, ha⟩, ⟨b, hb⟩⟩ := p
    simp only [brow, Prod.mk.injEq, Fin.mk.injEq]
    constructor <;> omega
  right_inv r := by
    obtain ⟨r, hr⟩ := r
    simp only [brow, Fin.mk.injEq]
    omega

theorem sum_blocks (f : Fin 32768 → EReal) : ∑ t : Fin 32, ∑ r : Fin 1024, f (brow t r) = ∑ r : Fin 32768, f r := by
  rw [← Fintype.sum_prod_type']
  exact Fintype.sum_equiv blkEquiv _ _ (fun p => rfl)

/-- The running sum within a group is the sum of the group's blocks so far. -/
theorem accum_eq (B : ℕ → EReal) (n : ℕ) : accum B n = ∑ k ∈ Finset.Ico (16 * (n / 16)) (n + 1), B k := by
  induction n with
  | zero => simp [accum, z_eq]
  | succ n ih =>
    simp only [accum]
    split_ifs with h
    · have e : 16 * ((n + 1) / 16) = n + 1 := by omega
      rw [e, z_eq, zero_add]; simp
    · have e : 16 * ((n + 1) / 16) = 16 * (n / 16) := by omega
      rw [e, ih]
      exact (Finset.sum_Ico_succ_top (by omega) B).symm

/-- The two groups' final running sums add up to the sum of all 32 blocks. -/
theorem groups_eq (B : ℕ → EReal) : accum B 15 + accum B 31 = ∑ t : Fin 32, B t.val := by
  rw [accum_eq, accum_eq, ← Finset.sum_range, Finset.range_eq_Ico,
    ← Finset.sum_Ico_consecutive B (by norm_num : 0 ≤ 16) (by norm_num : 16 ≤ 32)]

/-- The two spellings of the ranking hinge loss are the same extended real. -/
theorem tiled_eq_flat (s : Fin 32768 → Fin 2048 → EReal) (c : Fin 32768 → BitVec 32) (lab : Fin 32768 → Fin 2048 → BitVec 32) :
    tiled s c lab = flat s c lab := by
  unfold tiled flat
  have hT : ∀ t : Fin 32, blkTot c s lab t.val
      = ∑ r : Fin 1024, (fun r => Scalar.select (obsF (c r) (lab r)) (meanF (c r) (s r) (lab r)) z) (brow t r) := by
    intro t
    unfold blkTot
    rw [dif_pos t.isLt]
    exact Finset.sum_congr rfl fun r _ => rowT_eq _ _ _
  have hN : ∀ t : Fin 32, blkCnt c lab t.val
      = ∑ r : Fin 1024, (fun r => ofInt32 ((obsF (c r) (lab r)).setWidth 32)) (brow t r) := by
    intro t
    unfold blkCnt
    rw [dif_pos t.isLt]
    exact Finset.sum_congr rfl fun r _ => cntT_eq _ _
  have eT : accum (blkTot c s lab) 15 + accum (blkTot c s lab) 31
      = ∑ r : Fin 32768, Scalar.select (obsF (c r) (lab r)) (meanF (c r) (s r) (lab r)) z := by
    rw [groups_eq]
    simp only [hT]
    exact sum_blocks (fun r => Scalar.select (obsF (c r) (lab r)) (meanF (c r) (s r) (lab r)) z)
  have eN : z + (accum (blkCnt c lab) 15 + accum (blkCnt c lab) 31)
      = ofInt32 ((Finset.univ : Finset (Fin 32768)).fold IntOp.addi 0#32 (fun r => (obsF (c r) (lab r)).setWidth 32)) := by
    rw [groups_eq]
    simp only [hN]
    rw [sum_blocks (fun r => ofInt32 ((obsF (c r) (lab r)).setWidth 32)), sum_ofInt32 (fun r => obsF (c r) (lab r)), fold_addi_bits (fun r => obsF (c r) (lab r)),
      ofInt32_ofNat _ (cnt_row_lt _), z_eq, zero_add]
  rw [eT, eN]

end Cert.Spec

end
-- ==== Proof.KPay.lean ====
import proofs.«158513_j39041252721038_1_alg».proof.Proof.Gen.KernelIdeal.Skeleton
import proofs.«158513_j39041252721038_1_alg».proof.Proof.Spec
import Idealize.ShloMosaic.Lib.Pipeline.Value
import Idealize.ShloMosaic.Lib.ValueIdx
import Idealize.ShloMosaic.Lib.ValueLayout
import Idealize.ShloMosaic.PureOps.Ideal.Laws

/-!
The kernel body's arithmetic on one block of `1024` rows, read row by row: the value it adds to the running
total is the sum of the rows' contributions, and the value it adds to the running count is the number of
contributing rows.
-/

noncomputable section

open scoped BigOperators
open Idealize.ShloMosaic Idealize.ShloMosaic.ValueIdx

namespace Cert.KernelIdeal.Pay

open Cert.KernelIdeal Cert.KernelIdeal.Gen Cert.Spec

/-- A vector of length `a` viewed as a column `[a, 1]` reads `(r, 0)` at `r`. -/
theorem col_apply {α : Type} {a : ℕ} (v : (⟨1, ![a]⟩ : Shape).Idx → α)
    (h : (⟨1, ![a]⟩ : Shape).ShapeCasts ⟨2, ![a, 1]⟩) (r : Fin a) :
    shapeCast ⟨2, ![a, 1]⟩ v h (ix2 r (0 : Fin 1)) = v (ix1 r) :=
  shapeCast_apply v h _ _ (by rw [Shape.rowMajor_val_one, Shape.rowMajor_val_two]; show r.val = r.val * 1 + 0; omega)

/-- A column `[a, 1]` spread over `b` lanes reads `(r, l)` at `(r, 0)`. -/
theorem spread_apply {α : Type} {a b : ℕ} (hb : b ≠ 1) (ha : a ≠ 1) (v : (⟨2, ![a, 1]⟩ : Shape).Idx → α)
    (h : (⟨2, ![a, 1]⟩ : Shape).Broadcasts ⟨2, ![a, b]⟩) (r : Fin a) (l : Fin b) :
    broadcastTo ⟨2, ![a, b]⟩ v h (ix2 r l) = v (ix2 r (0 : Fin 1)) :=
  broadcastTo_apply v h _ _ (fun ax => by
    match ax with
    | ⟨0, _⟩ => show r.val = if a = 1 then 0 else r.val; rw [if_neg ha]
    | ⟨1, _⟩ => show (0 : ℕ) = if (1 : ℕ) = 1 then 0 else l.val; rw [if_pos rfl])

/-- Row `r` with lane `l` inserted. -/
theorem lift_lane (h : S1024x2048.Reduces [1] S1024) (r : Fin 1024) (l : Fin 2048) :
    h.lift (ix1 r) l = ix2 r l := by
  funext a
  apply Fin.ext
  match a with
  | ⟨0, _⟩ => rfl
  | ⟨1, _⟩ => rfl

variable (x0 : Vec Ideal S1024x2048 .f32) (x1 : Vec Ideal S1024x2048 .i32) (x2 : Vec Ideal S1024x1 .i32)

theorem pay4_eq : k0_pay4 (F := Ideal) x2 = x2 := shapeCast_self _ _

/-- The valid-lane mask of the block at `(r, l)`. -/
theorem pay5_apply (r : Fin 1024) (l : Fin 2048) :
    k0_pay5 (F := Ideal) x2 (ix2 r l) = vld (x2 (ix2 r (0 : Fin 1))) l := by
  unfold k0_pay5
  show IntOp.cmpi .slt (iota .tc S1024x2048 32 [1] iota_S1024x2048_d1_w32 (ix2 r l))
    (broadcastTo S1024x2048 (k0_pay4 (F := Ideal) x2) broadcasts_S1024x1_S1024x2048 (ix2 r l)) = _
  rw [iota_single_apply, spread_apply (by decide) (by decide), pay4_eq]
  rfl

/-- The negatives' mask of the block at `(r, l)`. -/
theorem pay6_apply (r : Fin 1024) (l : Fin 2048) :
    k0_pay6 (F := Ideal) x1 x2 (ix2 r l) = negb (x2 (ix2 r (0 : Fin 1))) (fun l => x1 (ix2 r l)) l := by
  unfold k0_pay6
  show IntOp.andi (IntOp.cmpi .eq (x1 (ix2 r l)) 0#32) (k0_pay5 (F := Ideal) x2 (ix2 r l)) = _
  rw [pay5_apply]
  rfl

/-! ### The lane reductions of one row -/

/-- A lane sum of the block at row `r` is the sum over the row's lanes. -/
theorem lane_sum (v : FVec Ideal S1024x2048 .f32) (r : Fin 1024) :
    multiReduction .add [1] S1024 v 0x00000000#32 reduces_S1024x2048_S1024 (.inl rfl) rfl (ix1 r)
      = ∑ l : Fin 2048, v (ix2 r l) :=
  (Ideal.multiReduction_add_single v _ reduces_S1024x2048_S1024 _ _ (ix1 r)).trans
    (Finset.sum_congr rfl fun l _ => congrArg v (lift_lane reduces_S1024x2048_S1024 r l))

/-- "Some lane of row `r` is set", as the kernel decides it: the lane maximum of the `0/1` indicators, compared with `0`. -/
theorem lane_any (b : IVec S1024x2048 1) (m : Fin 2048 → BitVec 1) (r : Fin 1024) (hb : ∀ l, b (ix2 r l) = m l) :
    cmpf .ogt
        (multiReduction .maximumf [1] S1024
          (select b (broadcast S1024x2048 (Scalar.ofBits (F := Ideal) .f32 0x3F800000#32))
            (broadcast S1024x2048 (Scalar.ofBits (F := Ideal) .f32 0x00000000#32)))
          0xFF800000#32 reduces_S1024x2048_S1024 (.inl rfl) rfl)
        (broadcast S1024 (Scalar.ofBits (F := Ideal) .f32 0x00000000#32)) (ix1 r)
      = anyMax m := by
  rw [cmpf_apply, broadcast_apply]
  unfold anyMax
  refine congrArg (fun x => Ideal.cmp .ogt x z) ?_
  refine (Ideal.multiReduction_maximumf_single _ _ reduces_S1024x2048_S1024 _ _ (ix1 r)).trans ?_
  refine congrArg (fun f => (Finset.univ : Finset (Fin 2048)).fold max ninf f) (funext fun (l : Fin 2048) => ?_)
  show Scalar.select (b (reduces_S1024x2048_S1024.lift (ix1 r) l)) one z = Scalar.select (m l) one z
  exact congrArg (fun c => Scalar.select c one z) ((congrArg b (lift_lane reduces_S1024x2048_S1024 r l)).trans (hb l))

/-- The positives' mask of the block at `(r, l)`. -/
theorem pos_apply (r : Fin 1024) (l : Fin 2048) :
    andi (cmpi .eq x1 (broadcast S1024x2048 1#32)) (k0_pay5 (F := Ideal) x2) (ix2 r l)
      = posb (x2 (ix2 r (0 : Fin 1))) (fun l => x1 (ix2 r l)) l := by
  show IntOp.andi (IntOp.cmpi .eq (x1 (ix2 r l)) 1#32) (k0_pay5 (F := Ideal) x2 (ix2 r l)) = _
  rw [pay5_apply]
  rfl

/-- Whether row `r` has a negative. -/
theorem pay7_apply (r : Fin 1024) :
    k0_pay7 (F := Ideal) x1 x2 (ix2 r (0 : Fin 1)) = anyMax (negb (x2 (ix2 r (0 : Fin 1))) (fun l => x1 (ix2 r l))) := by
  unfold k0_pay7
  dsimp only
  rw [col_apply]
  exact lane_any _ _ r (fun l => pay6_apply x1 x2 r l)

/-- The score row `r`'s hinge is taken against: the sum of its positive scores, or minus the margin. -/
theorem pay8_apply (r : Fin 1024) :
    k0_pay8 (F := Ideal) x0 x1 x2 (ix2 r (0 : Fin 1))
      = Scalar.select (anyMax (posb (x2 (ix2 r (0 : Fin 1))) (fun l => x1 (ix2 r l))))
          (posSum (x2 (ix2 r (0 : Fin 1))) (fun l => x0 (ix2 r l)) (fun l => x1 (ix2 r l))) nmrg := by
  unfold k0_pay8
  dsimp only
  show Scalar.select (shapeCast S1024x1 _ shapeCasts_S1024_S1024x1 (ix2 r (0 : Fin 1)))
    (shapeCast S1024x1 _ shapeCasts_S1024_S1024x1 (ix2 r (0 : Fin 1))) nmrg = _
  rw [col_apply, col_apply, lane_any _ _ r (fun l => pos_apply x1 x2 r l), lane_sum]
  congr 1
  unfold posSum
  refine Finset.sum_congr rfl fun l _ => ?_
  show Scalar.select (andi (cmpi .eq x1 (broadcast S1024x2048 1#32)) (k0_pay5 (F := Ideal) x2) (ix2 r l)) (x0 (ix2 r l)) z = _
  rw [pos_apply]

/-- Whether a row contributes: positive length and some negative. -/
theorem pay9_apply (v6 : IVec S1024x1 32) (v29 : IVec S1024x1 1) (i : S1024x1.Idx) :
    k0_pay9 v6 v29 i = IntOp.andi (IntOp.cmpi .sgt (v6 i) 0#32) (v29 i) := rfl

/-- The rows of a block as the indices of the block viewed `[1, 1024, 1]`. -/
def rowIdx : Fin 1024 ≃ S1x1024x1.Idx where
  toFun r := ix3 (0 : Fin 1) r (0 : Fin 1)
  invFun i := i 1
  left_inv r := rfl
  right_inv i := by
    funext a
    apply Fin.ext
    match a with
    | ⟨0, _⟩ => have h0 : (i 0).val < 1 := (i 0).isLt; show 0 = (i 0).val; omega
    | ⟨1, _⟩ => rfl
    | ⟨2, _⟩ => have h2 : (i 2).val < 1 := (i 2).isLt; show 0 = (i 2).val; omega

/-- The sum over every cell of a column `[1024, 1]` viewed `[1, 1024, 1]`, read back as a scalar, is the sum over the rows. -/
theorem col_total (v : FVec Ideal S1024x1 .f32) :
    extractAt ![0, 0, 0]
        (shapeCast S1x1x1
          (multiReduction .add [1, 2] S1 (shapeCast S1x1024x1 v shapeCasts_S1024x1_S1x1024x1) 0x00000000#32 reduces_S1x1024x1_S1 (.inl rfl) rfl)
          shapeCasts_S1_S1x1x1) inpos_S1x1x1_p0_0_0
      = ∑ r : Fin 1024, v (ix2 r (0 : Fin 1)) := by
  unfold extractAt
  refine (shapeCast_apply _ shapeCasts_S1_S1x1x1 _ (ix1 (0 : Fin 1)) (by
    rw [Shape.rowMajor_val_one, Shape.rowMajor_val_three]; rfl)).trans ?_
  refine (Ideal.multiReduction_add_total _ _ reduces_S1x1024x1_S1 (by decide) _ _ (ix1 (0 : Fin 1))).trans ?_
  refine (Equiv.sum_comp rowIdx _).symm.trans ?_
  exact Finset.sum_congr rfl fun r _ => shapeCast_ab_1ab_apply v shapeCasts_S1024x1_S1x1024x1 (0 : Fin 1) r (0 : Fin 1)

variable (v6 : IVec S1024x1 32) (v15 : IVec S1024x2048 1) (v29 : IVec S1024x1 1) (v35 : FVec Ideal S1024x1 .f32)

/-- What the body adds to every cell of the running total: the sum over the block's rows of the rows' contributions,
    from the lengths `cl`, the negatives' mask `ng`, the rows' "has a negative" bits `hn` and the scores `ch` the hinge is taken against. -/
theorem pay10_apply (v68 : Vec Ideal S1x8x128 .f32)
    (cl : Fin 1024 → BitVec 32) (ng : Fin 1024 → Fin 2048 → BitVec 1) (hn : Fin 1024 → BitVec 1) (ch : Fin 1024 → EReal)
    (h6 : ∀ r, v6 (ix2 r (0 : Fin 1)) = cl r) (h15 : ∀ r l, v15 (ix2 r l) = ng r l)
    (h29 : ∀ r, v29 (ix2 r (0 : Fin 1)) = hn r) (h35 : ∀ r, v35 (ix2 r (0 : Fin 1)) = ch r) :
    k0_pay10 (F := Ideal) x0 v6 v15 v29 v35 v68
      = fun y => v68 y + ∑ r : Fin 1024,
          Scalar.select (IntOp.andi (IntOp.cmpi .sgt (cl r) 0#32) (hn r))
            (Ideal.div (∑ l : Fin 2048, Scalar.select (ng r l) (max ((mrg + x0 (ix2 r l)) - ch r) z) z)
              (max (∑ l : Fin 2048, ofInt32 ((ng r l).setWidth 32)) one))
            z := by
  unfold k0_pay10
  dsimp only
  funext y
  rw [shapeCast_self]
  show v68 y + extractAt ![0, 0, 0]
      (shapeCast S1x1x1
        (multiReduction (F := Ideal) .add [1, 2] S1 (shapeCast S1x1024x1 _ shapeCasts_S1024x1_S1x1024x1) 0x00000000#32 reduces_S1x1024x1_S1 (.inl rfl) rfl)
        shapeCasts_S1_S1x1x1) inpos_S1x1x1_p0_0_0 = _
  rw [col_total]
  refine congrArg (fun s => v68 y + s) (Finset.sum_congr rfl fun r _ => ?_)
  show Scalar.select (k0_pay9 v6 v29 (ix2 r (0 : Fin 1)))
      (Ideal.div (shapeCast S1024x1 _ shapeCasts_S1024_S1024x1 (ix2 r (0 : Fin 1)))
        (max (shapeCast S1024x1 _ shapeCasts_S1024_S1024x1 (ix2 r (0 : Fin 1))) one)) z = _
  rw [pay9_apply, h6, h29, col_apply, col_apply, lane_sum, lane_sum]
  have e1 : ∀ l : Fin 2048, (select v15 (maximumf (subf (addf (broadcast S1024x2048 (Scalar.ofBits (F := Ideal) .f32 0x3DCCCCCD#32)) x0)
        (broadcastTo S1024x2048 v35 broadcasts_S1024x1_S1024x2048)) (broadcast S1024x2048 (Scalar.ofBits (F := Ideal) .f32 0x00000000#32)))
        (broadcast S1024x2048 (Scalar.ofBits (F := Ideal) .f32 0x00000000#32)) : FVec Ideal S1024x2048 .f32) (ix2 r l)
      = Scalar.select (ng r l) (max ((mrg + x0 (ix2 r l)) - ch r) z) z := by
    intro l
    show Scalar.select (v15 (ix2 r l)) (max ((mrg + x0 (ix2 r l)) - broadcastTo S1024x2048 v35 broadcasts_S1024x1_S1024x2048 (ix2 r l)) z) z = _
    rw [h15, spread_apply (by decide) (by decide), h35]
  have e2 : ∀ l : Fin 2048, (sitofp .f32 (extui 32 v15 natLt_1_32) : FVec Ideal S1024x2048 .f32) (ix2 r l) = ofInt32 ((ng r l).setWidth 32) := by
    intro l
    show ofInt32 ((v15 (ix2 r l)).setWidth 32) = _
    rw [h15]
  simp only [e1, e2]

/-- What the body adds to every cell of the running count: the number of contributing rows of the block. -/
theorem pay12_apply (cl : Fin 1024 → BitVec 32) (hn : Fin 1024 → BitVec 1)
    (h6 : ∀ r, v6 (ix2 r (0 : Fin 1)) = cl r) (h29 : ∀ r, v29 (ix2 r (0 : Fin 1)) = hn r) :
    k0_pay12 (F := Ideal) v6 v29
      = fun _ => ∑ r : Fin 1024, ofInt32 ((IntOp.andi (IntOp.cmpi .sgt (cl r) 0#32) (hn r)).setWidth 32) := by
  unfold k0_pay12
  dsimp only
  funext y
  show extractAt ![0, 0, 0]
      (shapeCast S1x1x1
        (multiReduction (F := Ideal) .add [1, 2] S1 (shapeCast S1x1024x1 _ shapeCasts_S1024x1_S1x1024x1) 0x00000000#32 reduces_S1x1024x1_S1 (.inl rfl) rfl)
        shapeCasts_S1_S1x1x1) inpos_S1x1x1_p0_0_0 = _
  rw [col_total]
  refine Finset.sum_congr rfl fun r _ => ?_
  show ofInt32 ((k0_pay9 v6 v29 (ix2 r (0 : Fin 1))).setWidth 32) = _
  rw [pay9_apply, h6, h29]

/-! ### The block -/

/-- The body adds the block's total contribution to every cell of the running total `v68`. -/
theorem block_total (v68 : Vec Ideal S1x8x128 .f32) :
    k0_pay10 (F := Ideal) x0 (k0_pay4 (F := Ideal) x2) (k0_pay6 (F := Ideal) x1 x2) (k0_pay7 (F := Ideal) x1 x2) (k0_pay8 (F := Ideal) x0 x1 x2) v68
      = fun y => v68 y + ∑ r : Fin 1024, rowT (x2 (ix2 r (0 : Fin 1))) (fun l => x0 (ix2 r l)) (fun l => x1 (ix2 r l)) := by
  refine (pay10_apply x0 (k0_pay4 (F := Ideal) x2) (k0_pay6 (F := Ideal) x1 x2) (k0_pay7 (F := Ideal) x1 x2) (k0_pay8 (F := Ideal) x0 x1 x2) v68
    (fun r => x2 (ix2 r (0 : Fin 1)))
    (fun r l => negb (x2 (ix2 r (0 : Fin 1))) (fun l => x1 (ix2 r l)) l)
    (fun r => anyMax (negb (x2 (ix2 r (0 : Fin 1))) (fun l => x1 (ix2 r l))))
    (fun r => Scalar.select (anyMax (posb (x2 (ix2 r (0 : Fin 1))) (fun l => x1 (ix2 r l))))
      (posSum (x2 (ix2 r (0 : Fin 1))) (fun l => x0 (ix2 r l)) (fun l => x1 (ix2 r l))) nmrg)
    (fun r => by rw [pay4_eq]) (fun r l => pay6_apply x1 x2 r l) (fun r => pay7_apply x1 x2 r) (fun r => pay8_apply x0 x1 x2 r)).trans ?_
  funext y
  refine congrArg (fun s => v68 y + s) (Finset.sum_congr rfl fun r _ => ?_)
  unfold rowT obsT hingeSum
  rfl

/-- The body adds the number of contributing rows of the block to every cell of the running count. -/
theorem block_count :
    k0_pay12 (F := Ideal) (k0_pay4 (F := Ideal) x2) (k0_pay7 (F := Ideal) x1 x2)
      = fun _ => ∑ r : Fin 1024, cntT (x2 (ix2 r (0 : Fin 1))) (fun l => x1 (ix2 r l)) := by
  refine (pay12_apply (k0_pay4 (F := Ideal) x2) (k0_pay7 (F := Ideal) x1 x2)
    (fun r => x2 (ix2 r (0 : Fin 1))) (fun r => anyMax (negb (x2 (ix2 r (0 : Fin 1))) (fun l => x1 (ix2 r l))))
    (fun r => by rw [pay4_eq]) (fun r => pay7_apply x1 x2 r)).trans ?_
  funext y
  refine Finset.sum_congr rfl fun r _ => ?_
  unfold cntT obsT
  rfl

/-- The reset stores the literal `0` in every cell. -/
theorem pay2_eq : k0_pay2 (F := Ideal) = fun _ => z := rfl
theorem pay3_eq : k0_pay3 (F := Ideal) = fun _ => z := rfl
/-- The count's tile is re-read unchanged, and the block's count added cell by cell. -/
theorem pay11_eq (v73 : Vec Ideal S1x8x128 .f32) : k0_pay11 (F := Ideal) v73 = v73 := shapeCast_self _ _
theorem pay1_eq (v74 v75 : FVec Ideal S1x8x128 .f32) : k0_pay1 (F := Ideal) v74 v75 = fun y => v74 y + v75 y := rfl

end Cert.KernelIdeal.Pay

end
-- ==== Proof.KBody.lean ====
import proofs.«158513_j39041252721038_1_alg».proof.Proof.Gen.KernelIdeal.Frame
import proofs.«158513_j39041252721038_1_alg».proof.Proof.Spec
import proofs.«158513_j39041252721038_1_alg».proof.Proof.KPay
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

/-!
What one run of the kernel body leaves in the two accumulator tiles, as values: at the first block of a group
`0 +` the block's total (count), at a later block the running tile plus the block's total (count).
-/

noncomputable section

open scoped BigOperators
open Idealize.ShloMosaic Idealize.ShloMosaic.TcCoe Idealize.SL.Sem Idealize.ShloMosaic.ValueIdx

namespace Cert.KernelIdeal.Body

open Cert.KernelIdeal Cert.KernelIdeal.Gen

/-- The total contribution of the `1024` rows of one block: scores `x0`, labels `x1`, lengths `x2`. -/
def totOf (x0 : Vec Ideal S1024x2048 .f32) (x1 : Vec Ideal S1024x2048 .i32) (x2 : Vec Ideal S1024x1 .i32) : EReal :=
  ∑ r : Fin 1024, Cert.Spec.rowT (x2 (ix2 r (0 : Fin 1))) (fun l => x0 (ix2 r l)) (fun l => x1 (ix2 r l))

/-- The number of contributing rows of one block, as a real. -/
def cntOf (x1 : Vec Ideal S1024x2048 .i32) (x2 : Vec Ideal S1024x1 .i32) : EReal :=
  ∑ r : Fin 1024, Cert.Spec.cntT (x2 (ix2 r (0 : Fin 1))) (fun l => x1 (ix2 r l))

theorem hz3 : (![0, 0, 0] : Fin 3 → Nat) = fun _ => 0 := funext fun a => by fin_cases a <;> rfl
theorem hz2 : (![0, 0] : Fin 2 → Nat) = fun _ => 0 := funext fun a => by fin_cases a <;> rfl

/-- At the first block of a group the body leaves, in every cell of the total's tile, `0 +` the block's total:
    the tile is reset to `0`, read back, and the block's total added. -/
theorem out_A_3 (c : Dev nD) (i : grid0.Coords) (a2 : Memref sig .tc .vmem S1024x2048 .f32) (h2 : a2.IsWhole)
    (a3 : Memref sig .tc .vmem S1024x2048 .i32) (h3 : a3.IsWhole) (a4 : Memref sig .tc .vmem S1024x1 .i32) (h4 : a4.IsWhole)
    (a5 : Memref sig .tc .vmem S1x8x128 .f32) (h5 : a5.IsWhole) (a6 : Memref sig .tc .vmem S1x8x128 .f32) (h6 : a6.IsWhole)
    (hc : cond0_0 i) (x0 : Vec Ideal S1024x2048 .f32) (x1 : Vec Ideal S1024x2048 .i32) (x2 : Vec Ideal S1024x1 .i32) :
    out0_A_3 (F := Ideal) c i a2 h2 a3 h3 a4 h4 a5 h5 a6 h6 hc x0 x1 x2 = fun _ => Cert.Spec.z + totOf x0 x1 x2 := by
  unfold out0_A_3
  rw [View.read_writes_eq_canon _ _ _ (cover0_A_3 c i a2 h2 a3 h3 a4 h4 a5 h5 a6 h6 hc x0 x1 x2)]
  unfold kernelRun0_A
  dsimp only
  sl_unfold_words
  rw [View.canon_cons_unit_zero (S := S1x8x128) hz3, View.readCov_unit_zero (S := S1x8x128) _ hz3]
  simp only [View.readAt_eq_ld, h2.read_unread, h3.read_unread, h4.read_unread, h5.read_unread, h6.read_unread,
    View.ld_unit_zero (S := S1x8x128) hz3, View.ld_unit_zero (S := S1024x2048) hz2, View.ld_unit_zero (S := S1024x1) hz2]
  exact Pay.block_total x0 x1 x2 (k0_pay2 (F := Ideal))

/-- … and in every cell of the count's tile, `0 +` the block's count. -/
theorem out_A_4 (c : Dev nD) (i : grid0.Coords) (a2 : Memref sig .tc .vmem S1024x2048 .f32) (h2 : a2.IsWhole)
    (a3 : Memref sig .tc .vmem S1024x2048 .i32) (h3 : a3.IsWhole) (a4 : Memref sig .tc .vmem S1024x1 .i32) (h4 : a4.IsWhole)
    (a5 : Memref sig .tc .vmem S1x8x128 .f32) (h5 : a5.IsWhole) (a6 : Memref sig .tc .vmem S1x8x128 .f32) (h6 : a6.IsWhole)
    (hc : cond0_0 i) (x0 : Vec Ideal S1024x2048 .f32) (x1 : Vec Ideal S1024x2048 .i32) (x2 : Vec Ideal S1024x1 .i32) :
    out0_A_4 (F := Ideal) c i a2 h2 a3 h3 a4 h4 a5 h5 a6 h6 hc x0 x1 x2 = fun _ => Cert.Spec.z + cntOf x1 x2 := by
  unfold out0_A_4
  rw [View.read_writes_eq_canon _ _ _ (cover0_A_4 c i a2 h2 a3 h3 a4 h4 a5 h5 a6 h6 hc x0 x1 x2)]
  unfold kernelRun0_A
  dsimp only
  sl_unfold_words
  rw [View.canon_cons_unit_zero (S := S1x8x128) hz3, View.readCov_unit_zero (S := S1x8x128) _ hz3]
  simp only [View.readAt_eq_ld, h2.read_unread, h3.read_unread, h4.read_unread, h5.read_unread, h6.read_unread,
    View.ld_unit_zero (S := S1x8x128) hz3, View.ld_unit_zero (S := S1024x2048) hz2, View.ld_unit_zero (S := S1024x1) hz2]
  rw [Pay.pay1_eq, Pay.pay11_eq, Pay.block_count]
  rfl

/-- At a later block of a group the body adds the block's total to every cell of the running tile `xo3`. -/
theorem out_B_3 (c : Dev nD) (i : grid0.Coords) (a2 : Memref sig .tc .vmem S1024x2048 .f32) (h2 : a2.IsWhole)
    (a3 : Memref sig .tc .vmem S1024x2048 .i32) (h3 : a3.IsWhole) (a4 : Memref sig .tc .vmem S1024x1 .i32) (h4 : a4.IsWhole)
    (a5 : Memref sig .tc .vmem S1x8x128 .f32) (h5 : a5.IsWhole) (a6 : Memref sig .tc .vmem S1x8x128 .f32) (h6 : a6.IsWhole)
    (hc : ¬cond0_0 i) (x0 : Vec Ideal S1024x2048 .f32) (x1 : Vec Ideal S1024x2048 .i32) (x2 : Vec Ideal S1024x1 .i32)
    (xo3 xo4 : Vec Ideal S1x8x128 .f32) :
    out0_B_3 (F := Ideal) c i a2 h2 a3 h3 a4 h4 a5 h5 a6 h6 hc x0 x1 x2 xo3 xo4 = fun y => xo3 y + totOf x0 x1 x2 := by
  unfold out0_B_3
  rw [View.read_writes_eq_canon _ _ _ (cover0_B_3 c i a2 h2 a3 h3 a4 h4 a5 h5 a6 h6 hc x0 x1 x2 xo3 xo4)]
  unfold kernelRun0_B
  dsimp only
  sl_unfold_words
  rw [View.canon_unit_zero hz3]
  simp only [View.readAt_eq_ld, h2.read_unread, h3.read_unread, h4.read_unread, h5.read_unread, h6.read_unread,
    View.ld_unit_zero (S := S1x8x128) hz3, View.ld_unit_zero (S := S1024x2048) hz2, View.ld_unit_zero (S := S1024x1) hz2]
  exact Pay.block_total x0 x1 x2 xo3

/-- … and the block's count to every cell of the running tile `xo4`. -/
theorem out_B_4 (c : Dev nD) (i : grid0.Coords) (a2 : Memref sig .tc .vmem S1024x2048 .f32) (h2 : a2.IsWhole)
    (a3 : Memref sig .tc .vmem S1024x2048 .i32) (h3 : a3.IsWhole) (a4 : Memref sig .tc .vmem S1024x1 .i32) (h4 : a4.IsWhole)
    (a5 : Memref sig .tc .vmem S1x8x128 .f32) (h5 : a5.IsWhole) (a6 : Memref sig .tc .vmem S1x8x128 .f32) (h6 : a6.IsWhole)
    (hc : ¬cond0_0 i) (x0 : Vec Ideal S1024x2048 .f32) (x1 : Vec Ideal S1024x2048 .i32) (x2 : Vec Ideal S1024x1 .i32)
    (xo3 xo4 : Vec Ideal S1x8x128 .f32) :
    out0_B_4 (F := Ideal) c i a2 h2 a3 h3 a4 h4 a5 h5 a6 h6 hc x0 x1 x2 xo3 xo4 = fun y => xo4 y + cntOf x1 x2 := by
  unfold out0_B_4
  rw [View.read_writes_eq_canon _ _ _ (cover0_B_4 c i a2 h2 a3 h3 a4 h4 a5 h5 a6 h6 hc x0 x1 x2 xo3 xo4)]
  unfold kernelRun0_B
  dsimp only
  sl_unfold_words
  rw [View.canon_unit_zero hz3]
  simp only [View.readAt_eq_ld, h2.read_unread, h3.read_unread, h4.read_unread, h5.read_unread, h6.read_unread,
    View.ld_unit_zero (S := S1x8x128) hz3, View.ld_unit_zero (S := S1024x2048) hz2, View.ld_unit_zero (S := S1024x1) hz2]
  rw [Pay.pay1_eq, Pay.pay11_eq, Pay.block_count]
  rfl

end Cert.KernelIdeal.Body

end
-- ==== Proof.KArrays.lean ====
import proofs.«158513_j39041252721038_1_alg».proof.Proof.KBody
import Idealize.ShloMosaic.Lib.StableHlo.Run

noncomputable section

open scoped BigOperators
open Idealize.ShloMosaic Idealize.ShloMosaic.TcCoe Idealize.SL.Sem Idealize.ShloMosaic.ValueIdx
open Idealize.ShloMosaic.Pipeline (Dat)

namespace Cert.KernelIdeal.Arrays

open Cert.KernelIdeal Cert.KernelIdeal.Gen

variable (m : (ℓ : Loc nD τ sig) → Buf (Elt Ideal) ℓ)

/-- The three argument arrays of core `c` as functions of a row and a lane. -/
abbrev Sarr (c : Dev nD) : Fin 32768 → Fin 2048 → EReal := fun r l => m ((c : Thread nD τ).loc main_arg0) (ix2 r l)
abbrev Carr (c : Dev nD) : Fin 32768 → BitVec 32 := fun r => m ((c : Thread nD τ).loc main_arg1) (ix1 r)
abbrev Larr (c : Dev nD) : Fin 32768 → Fin 2048 → BitVec 32 := fun r l => m ((c : Thread nD τ).loc main_arg2) (ix2 r l)

/-! ### Where the blocks sit

Point `t` of the grid reads block row `t` of the scores, of the labels and of the lengths column, and holds the
tile of group `t / 16` of each of the two result arrays. -/

/-- The block indices of the three inputs at point `t`: block row `t`, block column `0`. -/
theorem idx_in : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- The block indices of the two results at point `t`: the group `t / 16`, then `0`, `0`. -/
theorem idx_out : ∀ t : Fin cfg0.N, win0_3.index t (0 : Fin 3) = t.val / 16 ∧ win0_3.index t (1 : Fin 3) = 0
    ∧ win0_3.index t (2 : Fin 3) = 0
    ∧ win0_4.index t (0 : Fin 3) = t.val / 16 ∧ win0_4.index t (1 : Fin 3) = 0 ∧ win0_4.index t (2 : Fin 3) = 0 :=
  (by decide +kernel : ∀ t : Fin grid0.N, _)

/-- The lengths column the kernel reads is the lengths vector reshaped to one lane per row. -/
theorem V_lengths (c : Dev nD) : (V m c main_v0 : S32768x1.Idx → BitVec 32)
    = shapeCast S32768x1 (m ((c : Thread nD τ).loc main_arg1)) shapeCasts_S32768_S32768x1 := by
  dsimp only [Gen.V, Gen.V0]
  simp only [Gen.hostOps0, List.flatten_cons, List.flatten_nil, List.append_nil]
  after_results
  rfl

/-- Row `r`, lane `l` of the scores block at point `t` is row `1024 t + r`, lane `l` of the scores. -/
theorem iblk0_apply (c : Dev nD) (t : Fin cfg0.N) (ht : t.val < 32) (r : Fin 1024) (l : Fin 2048) :
    (iblk m c 0 t : Vec Ideal S1024x2048 .f32) (ix2 r l) = Sarr m c (Cert.Spec.brow ⟨t.val, ht⟩ r) l := by
  obtain ⟨e0, e1, -⟩ := idx_in t
  unfold iblk
  rw [View.read_apply]
  show V m c main_arg0 _ = m (c.tc.loc main_arg0) _
  rw [V_main_arg0]
  congr 1
  funext a
  apply Fin.ext
  match a with
  | ⟨0, _⟩ => show win0_0.index t 0 * 1024 + 1 * r.val = t.val * 1024 + r.val; rw [e0]; omega
  | ⟨1, _⟩ => show win0_0.index t 1 * 2048 + 1 * l.val = l.val; rw [e1]; omega

/-- The same for the labels. -/
theorem iblk1_apply (c : Dev nD) (t : Fin cfg0.N) (ht : t.val < 32) (r : Fin 1024) (l : Fin 2048) :
    (iblk m c 1 t : Vec Ideal S1024x2048 .i32) (ix2 r l) = Larr m c (Cert.Spec.brow ⟨t.val, ht⟩ r) l := by
  obtain ⟨-, -, e0, e1, -⟩ := idx_in t
  unfold iblk
  rw [View.read_apply]
  show V m c main_arg2 _ = m (c.tc.loc main_arg2) _
  rw [V_main_arg2]
  congr 1
  funext a
  apply Fin.ext
  match a with
  | ⟨0, _⟩ => show win0_1.index t 0 * 1024 + 1 * r.val = t.val * 1024 + r.val; rw [e0]; omega
  | ⟨1, _⟩ => show win0_1.index t 1 * 2048 + 1 * l.val = l.val; rw [e1]; omega

/-- Row `r` of the lengths block at point `t` is entry `1024 t + r` of the lengths. -/
theorem iblk2_apply (c : Dev nD) (t : Fin cfg0.N) (ht : t.val < 32) (r : Fin 1024) :
    (iblk m c 2 t : Vec Ideal S1024x1 .i32) (ix2 r (0 : Fin 1)) = Carr m c (Cert.Spec.brow ⟨t.val, ht⟩ r) := by
  obtain ⟨-, -, -, -, e0, e1⟩ := idx_in t
  unfold iblk
  rw [View.read_apply]
  show V m c main_v0 _ = m (c.tc.loc main_arg1) _
  rw [V_lengths]
  refine shapeCast_apply _ _ _ (ix1 (Cert.Spec.brow ⟨t.val, ht⟩ r)) ?_
  rw [Shape.rowMajor_val_one, Shape.rowMajor_val_two]
  show t.val * 1024 + r.val = (win0_2.index t 0 * 1024 + 1 * r.val) * 1 + (win0_2.index t 1 * 1 + 1 * 0)
  rw [e0, e1]; omega

/-! ### One block's total and count -/

/-- A block whose rows are rows `1024 n + r` of the arrays has block `n`'s total … -/
theorem totOf_eq (x0 : Vec Ideal S1024x2048 .f32) (x1 : Vec Ideal S1024x2048 .i32) (x2 : Vec Ideal S1024x1 .i32)
    (C : Fin 32768 → BitVec 32) (S : Fin 32768 → Fin 2048 → EReal) (L : Fin 32768 → Fin 2048 → BitVec 32)
    (n : ℕ) (hn : n < 32)
    (h0 : ∀ r l, x0 (ix2 r l) = S (Cert.Spec.brow ⟨n, hn⟩ r) l)
    (h1 : ∀ r l, x1 (ix2 r l) = L (Cert.Spec.brow ⟨n, hn⟩ r) l)
    (h2 : ∀ r, x2 (ix2 r (0 : Fin 1)) = C (Cert.Spec.brow ⟨n, hn⟩ r)) :
    Body.totOf x0 x1 x2 = Cert.Spec.blkTot C S L n := by
  unfold Body.totOf Cert.Spec.blkTot
  rw [dif_pos hn]
  refine Finset.sum_congr rfl fun r _ => ?_
  rw [h2 r, funext (h0 r), funext (h1 r)]

/-- … and block `n`'s count. -/
theorem cntOf_eq (x1 : Vec Ideal S1024x2048 .i32) (x2 : Vec Ideal S1024x1 .i32)
    (C : Fin 32768 → BitVec 32) (L : Fin 32768 → Fin 2048 → BitVec 32)
    (n : ℕ) (hn : n < 32)
    (h1 : ∀ r l, x1 (ix2 r l) = L (Cert.Spec.brow ⟨n, hn⟩ r) l)
    (h2 : ∀ r, x2 (ix2 r (0 : Fin 1)) = C (Cert.Spec.brow ⟨n, hn⟩ r)) :
    Body.cntOf x1 x2 = Cert.Spec.blkCnt C L n := by
  unfold Body.cntOf Cert.Spec.blkCnt
  rw [dif_pos hn]
  refine Finset.sum_congr rfl fun r _ => ?_
  rw [h2 r, funext (h1 r)]

/-- The blocks point `t` reads have block `t`'s total … -/
theorem totOf_iblk (c : Dev nD) (t : Fin cfg0.N) :
    Body.totOf (iblk m c 0 t) (iblk m c 1 t) (iblk m c 2 t)
      = Cert.Spec.blkTot (Carr m c) (Sarr m c) (Larr m c) t.val :=
  have ht : t.val < 32 := lt_of_lt_of_eq t.isLt N_0
  totOf_eq (iblk m c 0 t) (iblk m c 1 t) (iblk m c 2 t) (Carr m c) (Sarr m c) (Larr m c) t.val ht
    (iblk0_apply m c t ht) (iblk1_apply m c t ht) (iblk2_apply m c t ht)

/-- … and block `t`'s count. -/
theorem cntOf_iblk (c : Dev nD) (t : Fin cfg0.N) :
    Body.cntOf (iblk m c 1 t) (iblk m c 2 t) = Cert.Spec.blkCnt (Carr m c) (Larr m c) t.val :=
  have ht : t.val < 32 := lt_of_lt_of_eq t.isLt N_0
  cntOf_eq (iblk m c 1 t) (iblk m c 2 t) (Carr m c) (Larr m c) t.val ht (iblk1_apply m c t ht) (iblk2_apply m c t ht)

/-! ### The running sums -/

/-- What the two tiles hold after point `n`: in every cell, the running sum of the block totals, resp. counts,
    restarted at the first block of each group — by induction on the point. -/
theorem outsAt_eq (c : Dev nD) : ∀ (n : ℕ) (h : n < cfg0.N), outsAt0 m c n h
    = (fun _ => Cert.Spec.accum (Cert.Spec.blkTot (Carr m c) (Sarr m c) (Larr m c)) n,
       fun _ => Cert.Spec.accum (Cert.Spec.blkCnt (Carr m c) (Larr m c)) n)
  | 0, h => by
    rw [outsAt0_A m c ⟨0, h⟩ (Nat.zero_mod 16)]
    refine congrArg₂ Prod.mk ?_ ?_
    · refine (Body.out_A_3 c (grid0.coords ⟨0, h⟩) (ms0_0 ⟨0, h⟩) (hs0_0 ⟨0, h⟩) (ms0_1 ⟨0, h⟩) (hs0_1 ⟨0, h⟩)
        (ms0_2 ⟨0, h⟩) (hs0_2 ⟨0, h⟩) (ms0_3 ⟨0, h⟩) (hs0_3 ⟨0, h⟩) (ms0_4 ⟨0, h⟩) (hs0_4 ⟨0, h⟩) _
        (iblk m c 0 ⟨0, h⟩) (iblk m c 1 ⟨0, h⟩) (iblk m c 2 ⟨0, h⟩)).trans ?_
      rw [totOf_iblk m c ⟨0, h⟩]
      rfl
    · refine (Body.out_A_4 c (grid0.coords ⟨0, h⟩) (ms0_0 ⟨0, h⟩) (hs0_0 ⟨0, h⟩) (ms0_1 ⟨0, h⟩) (hs0_1 ⟨0, h⟩)
        (ms0_2 ⟨0, h⟩) (hs0_2 ⟨0, h⟩) (ms0_3 ⟨0, h⟩) (hs0_3 ⟨0, h⟩) (ms0_4 ⟨0, h⟩) (hs0_4 ⟨0, h⟩) _
        (iblk m c 0 ⟨0, h⟩) (iblk m c 1 ⟨0, h⟩) (iblk m c 2 ⟨0, h⟩)).trans ?_
      rw [cntOf_iblk m c ⟨0, h⟩]
      rfl
  | n + 1, h => by
    by_cases h0 : (n + 1) % 16 = 0
    · rw [outsAt0_A m c ⟨n + 1, h⟩ h0]
      refine congrArg₂ Prod.mk ?_ ?_
      · refine (Body.out_A_3 c (grid0.coords ⟨n + 1, h⟩) (ms0_0 ⟨n + 1, h⟩) (hs0_0 ⟨n + 1, h⟩) (ms0_1 ⟨n + 1, h⟩) (hs0_1 ⟨n + 1, h⟩)
          (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) _
          (iblk m c 0 ⟨n + 1, h⟩) (iblk m c 1 ⟨n + 1, h⟩) (iblk m c 2 ⟨n + 1, h⟩)).trans ?_
        rw [totOf_iblk m c ⟨n + 1, h⟩]
        show (fun _ => _) = fun _ => Cert.Spec.accum _ (n + 1)
        rw [Cert.Spec.accum, if_pos h0]
      · refine (Body.out_A_4 c (grid0.coords ⟨n + 1, h⟩) (ms0_0 ⟨n + 1, h⟩) (hs0_0 ⟨n + 1, h⟩) (ms0_1 ⟨n + 1, h⟩) (hs0_1 ⟨n + 1, h⟩)
          (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) _
          (iblk m c 0 ⟨n + 1, h⟩) (iblk m c 1 ⟨n + 1, h⟩) (iblk m c 2 ⟨n + 1, h⟩)).trans ?_
        rw [cntOf_iblk m c ⟨n + 1, h⟩]
        show (fun _ => _) = fun _ => Cert.Spec.accum _ (n + 1)
        rw [Cert.Spec.accum, if_pos h0]
    · rw [outsAt0_B m c ⟨n + 1, h⟩ h0]
      have ih := outsAt_eq c n (Nat.lt_of_succ_lt h)
      refine congrArg₂ Prod.mk ?_ ?_
      · refine (Body.out_B_3 c (grid0.coords ⟨n + 1, h⟩) (ms0_0 ⟨n + 1, h⟩) (hs0_0 ⟨n + 1, h⟩) (ms0_1 ⟨n + 1, h⟩) (hs0_1 ⟨n + 1, h⟩)
          (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) _
          (iblk m c 0 ⟨n + 1, h⟩) (iblk m c 1 ⟨n + 1, h⟩) (iblk m c 2 ⟨n + 1, h⟩) _ _).trans ?_
        rw [totOf_iblk m c ⟨n + 1, h⟩]
        show (fun y => (outsAt0 m c n _).1 y + _) = fun _ => Cert.Spec.accum _ (n + 1)
        rw [ih, Cert.Spec.accum, if_neg h0]
      · refine (Body.out_B_4 c (grid0.coords ⟨n + 1, h⟩) (ms0_0 ⟨n + 1, h⟩) (hs0_0 ⟨n + 1, h⟩) (ms0_1 ⟨n + 1, h⟩) (hs0_1 ⟨n + 1, h⟩)
          (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) _
          (iblk m c 0 ⟨n + 1, h⟩) (iblk m c 1 ⟨n + 1, h⟩) (iblk m c 2 ⟨n + 1, h⟩) _ _).trans ?_
        rw [cntOf_iblk m c ⟨n + 1, h⟩]
        show (fun y => (outsAt0 m c n _).2 y + _) = fun _ => Cert.Spec.accum _ (n + 1)
        rw [ih, Cert.Spec.accum, if_neg h0]

/-! ### From the tiles to the arrays -/

/-- The totals array as it ends: every cell of group `g`'s tile holds the running sum at block `16 g + 15`. -/
abbrev tots (c : Dev nD) : Buf (Elt Ideal) ((c : Thread nD τ).loc main_v1_0) :=
  fun i => Cert.Spec.accum (Cert.Spec.blkTot (Carr m c) (Sarr m c) (Larr m c)) (16 * (i 0).val + 15)

/-- The counts array as it ends. -/
abbrev cnts (c : Dev nD) : Buf (Elt Ideal) ((c : Thread nD τ).loc main_v1_1) :=
  fun i => Cert.Spec.accum (Cert.Spec.blkCnt (Carr m c) (Larr m c)) (16 * (i 0).val + 15)

/-- A group's last point `t = 16 g + 15` writes back the totals tile of group `g`: the running sum at `t` in every cell. -/
theorem flushed3_eq (c : Dev nD) (t : Fin cfg0.N) (hf : (cfg0.win 3).flush t = true) :
    (dats m 0 c).flushed 3 t = ((cfg0.win 3).blk t).view.read (Elt Ideal) (tots m c) := by
  have h15 : t.val % 16 = 15 := (flush0_3 t).mp hf
  obtain ⟨e0, -⟩ := idx_out t
  show (cfg0.win 3).cut (grid0.coords t) ((dats m 0 c).after 3 t) = _
  rw [after0_3, outsAt_eq]
  funext y
  rw [View.read_apply]
  show Cert.Spec.accum _ t.val = Cert.Spec.accum _ (16 * (win0_3.index t 0 * 1 + 1 * (y 0).val) + 15)
  have hy : (y 0).val < 1 := (y 0).isLt
  congr 1
  rw [e0]; omega

/-- The same for the counts tile. -/
theorem flushed4_eq (c : Dev nD) (t : Fin cfg0.N) (hf : (cfg0.win 4).flush t = true) :
    (dats m 0 c).flushed 4 t = ((cfg0.win 4).blk t).view.read (Elt Ideal) (cnts m c) := by
  have h15 : t.val % 16 = 15 := (flush0_4 t).mp hf
  obtain ⟨-, -, -, e0, -⟩ := idx_out t
  show (cfg0.win 4).cut (grid0.coords t) ((dats m 0 c).after 4 t) = _
  rw [after0_4, outsAt_eq]
  funext y
  rw [View.read_apply]
  show Cert.Spec.accum _ t.val = Cert.Spec.accum _ (16 * (win0_4.index t 0 * 1 + 1 * (y 0).val) + 15)
  have hy : (y 0).val < 1 := (y 0).isLt
  congr 1
  rw [e0]; omega

/-- The last point of group `g`. -/
abbrev lastOf (g : ℕ) (hg : g < 2) : Fin cfg0.N := ⟨16 * g + 15, by rw [show cfg0.N = 32 from N_0]; omega⟩

/-- Cell `i` of the totals array lies in the tile written back by the last point of group `i 0`. -/
theorem cover3 (i : S2x8x128.Idx) :
    ∃ t : Fin cfg0.N, (cfg0.win 3).flush t = true ∧ i ∈ ((cfg0.win 3).blk t).view.set := by
  have h0 : (i 0 : Nat) < 2 := (i 0).isLt
  have h1 : (i 1 : Nat) < 8 := (i 1).isLt
  have h2 : (i 2 : Nat) < 128 := (i 2).isLt
  obtain ⟨e0, e1, e2, -⟩ := idx_out (lastOf (i 0).val h0)
  have ev : (lastOf (i 0).val h0).val = 16 * (i 0).val + 15 := rfl
  refine ⟨lastOf (i 0).val h0, (flush0_3 _).mpr (by rw [ev]; omega), ?_⟩
  show i ∈ ((View.whole main_v1_0).slice (win0_3.rect (lastOf (i 0).val h0))).set
  rw [View.set_slice_whole, Rect.mem_set_unit]
  intro a
  match a with
  | ⟨0, _⟩ => show win0_3.index (lastOf (i 0).val h0) 0 * 1 ≤ (i 0 : Nat) ∧ (i 0 : Nat) < win0_3.index (lastOf (i 0).val h0) 0 * 1 + 1
              rw [e0, ev]; omega
  | ⟨1, _⟩ => show win0_3.index (lastOf (i 0).val h0) 1 * 8 ≤ (i 1 : Nat) ∧ (i 1 : Nat) < win0_3.index (lastOf (i 0).val h0) 1 * 8 + 8
              rw [e1]; omega
  | ⟨2, _⟩ => show win0_3.index (lastOf (i 0).val h0) 2 * 128 ≤ (i 2 : Nat) ∧ (i 2 : Nat) < win0_3.index (lastOf (i 0).val h0) 2 * 128 + 128
              rw [e2]; omega

/-- The same for the counts array. -/
theorem cover4 (i : S2x8x128.Idx) :
    ∃ t : Fin cfg0.N, (cfg0.win 4).flush t = true ∧ i ∈ ((cfg0.win 4).blk t).view.set := by
  have h0 : (i 0 : Nat) < 2 := (i 0).isLt
  have h1 : (i 1 : Nat) < 8 := (i 1).isLt
  have h2 : (i 2 : Nat) < 128 := (i 2).isLt
  obtain ⟨-, -, -, e0, e1, e2⟩ := idx_out (lastOf (i 0).val h0)
  have ev : (lastOf (i 0).val h0).val = 16 * (i 0).val + 15 := rfl
  refine ⟨lastOf (i 0).val h0, (flush0_4 _).mpr (by rw [ev]; omega), ?_⟩
  show i ∈ ((View.whole main_v1_1).slice (win0_4.rect (lastOf (i 0).val h0))).set
  rw [View.set_slice_whole, Rect.mem_set_unit]
  intro a
  match a with
  | ⟨0, _⟩ => show win0_4.index (lastOf (i 0).val h0) 0 * 1 ≤ (i 0 : Nat) ∧ (i 0 : Nat) < win0_4.index (lastOf (i 0).val h0) 0 * 1 + 1
              rw [e0, ev]; omega
  | ⟨1, _⟩ => show win0_4.index (lastOf (i 0).val h0) 1 * 8 ≤ (i 1 : Nat) ∧ (i 1 : Nat) < win0_4.index (lastOf (i 0).val h0) 1 * 8 + 8
              rw [e1]; omega
  | ⟨2, _⟩ => show win0_4.index (lastOf (i 0).val h0) 2 * 128 ≤ (i 2 : Nat) ∧ (i 2 : Nat) < win0_4.index (lastOf (i 0).val h0) 2 * 128 + 128
              rw [e2]; omega

/-- After the grid, every cell of group `g`'s tile of the totals array holds the running sum at the group's last block. -/
theorem final3 (c : Dev nD) : (dats m 0 c).arrAt 3 cfg0.N
    = fun i => Cert.Spec.accum (Cert.Spec.blkTot (Carr m c) (Sarr m c) (Larr m c)) (16 * (i 0).val + 15) :=
  (dats m 0 c).arrAt_eq_of_cover 3 (tots m c) (flushed3_eq m c) cover3

/-- … and of the counts array likewise. -/
theorem final4 (c : Dev nD) : (dats m 0 c).arrAt 4 cfg0.N
    = fun i => Cert.Spec.accum (Cert.Spec.blkCnt (Carr m c) (Larr m c)) (16 * (i 0).val + 15) :=
  (dats m 0 c).arrAt_eq_of_cover 4 (cnts m c) (flushed4_eq m c) cover4

end Cert.KernelIdeal.Arrays

end
-- ==== Proof.KRun.lean ====
import proofs.«158513_j39041252721038_1_alg».proof.Proof.KArrays
import Idealize.ShloMosaic.Lib.StableHlo.Run
import Idealize.ShloMosaic.Lib.Pipeline.Value
import Idealize.ShloMosaic.PureOps.Ideal.Laws

/-!
The kernel program's run, read as a value.

After the grid the two result arrays hold, in every cell of group `g`'s tile, the running sum of the blocks'
totals (resp. counts) at the group's last block (`Arrays.final3`, `Arrays.final4`).  The lines after the grid take
cell `(g, 0, 0)` of each group (a slice and a reshape), sum the two cells from the literal `0`, and return the
totals' sum divided by the counts' sum (at least `1`) when the counts' sum is positive, `0` otherwise: that is
`Spec.finish` of the two sums, i.e. `Spec.tiled` of the argument arrays.  The three argument arrays are left as
launched.
-/

noncomputable section

open scoped BigOperators
open Idealize.ShloMosaic Idealize.ShloMosaic.TcCoe Idealize.SL.Sem Idealize.ShloMosaic.ValueIdx
open Idealize.ShloMosaic.Pipeline (Dat)

namespace Cert.KernelIdeal.Run

open Cert.KernelIdeal Cert.KernelIdeal.Gen Cert.KernelIdeal.Arrays

/-! ## The operations after the grid, as a function of the two result arrays -/

/-- The slice `[0:2, 0:1, 0:1]` of an array of two tiles, reshaped to a vector of two: cell `(g, 0, 0)` of each group `g`. -/
def heads (A : S2x8x128.Idx → EReal) : S2.Idx → EReal :=
  shapeCast S2 (extractStridedSlice S2x1x1 ![0, 0, 0] A slices_S2x8x128_S2x1x1_0_0_0) shapeCasts_S2x1x1_S2

/-- The two heads summed from the literal `0`. -/
def total (A : S2x8x128.Idx → EReal) : S_.Idx → EReal :=
  Host.reduceAdd (F := Ideal) (φ := .f32) (heads A) (constant (F := Ideal) S_ .f32 0x00000000#32) reducesTo_S2_S_d0 h_S_

/-- The lines after the grid: the totals' sum divided by the counts' sum (at least `1`), or `0` when no row counts. -/
def tail (A3 A4 : S2x8x128.Idx → EReal) : S_.Idx → EReal :=
  select (cmpf (F := Ideal) (φ := .f32) .ogt (total A4) (constant (F := Ideal) S_ .f32 0x00000000#32))
    (Host.divf (F := Ideal) (φ := .f32) (total A3)
      (maximumf (F := Ideal) (φ := .f32) (total A4) (constant (F := Ideal) S_ .f32 0x3F800000#32)))
    (id (constant (F := Ideal) S_ .f32 0x00000000#32))

/-- A head is the cell `(g, 0, 0)`: the slice keeps the three coordinates, the reshape the row-major position. -/
theorem heads_apply (A : S2x8x128.Idx → EReal) (j : S2.Idx) (g : Fin 2) (hg : (j 0).val = g.val) :
    heads A j = A (ix3 g 0 0) := by
  unfold heads
  refine (shapeCast_apply _ shapeCasts_S2x1x1_S2 j (ix3 g (0 : Fin 1) (0 : Fin 1)) ?_).trans ?_
  · rw [Shape.rowMajor_val_three, Shape.rowMajor_val_one]
    show (g.val * 1 + 0) * 1 + 0 = (j 0).val
    omega
  · exact extractStridedSlice_apply _ A _ _ (ix3 g (0 : Fin 8) (0 : Fin 128)) fun a =>
      match a with
      | ⟨0, _⟩ => by show g.val = 0 + g.val; omega
      | ⟨1, _⟩ => by show 0 = 0 + 0; omega
      | ⟨2, _⟩ => by show 0 = 0 + 0; omega

/-- A vector of two is indexed by `Fin 2`. -/
def idx2 : S2.Idx ≃ Fin 2 where
  toFun j := j 0
  invFun g := ix1 g
  left_inv j := (eq_ix1 j).symm
  right_inv g := rfl

/-- A sum over a vector of two has two terms. -/
theorem sum_S2 (x : S2.Idx → EReal) : ∑ i : S2.Idx, x i = x (ix1 0) + x (ix1 1) :=
  (Fintype.sum_equiv idx2 x (fun g : Fin 2 => x (ix1 g)) (fun j => congrArg x (eq_ix1 j))).trans (Fin.sum_univ_two _)

/-- The sum of the two heads from `0`. -/
theorem total_apply (A : S2x8x128.Idx → EReal) (j : S_.Idx) :
    total A j = Cert.Spec.z + (A (ix3 0 0 0) + A (ix3 1 0 0)) := by
  unfold total
  refine (Ideal.hostReduceAdd_total reducesTo_S2_S_d0 (fun b => b.elim0) (heads A) _ j).trans ?_
  refine congrArg (fun s => Cert.Spec.z + s) ?_
  rw [sum_S2, heads_apply A (ix1 0) 0 rfl, heads_apply A (ix1 1) 1 rfl]

/-- The lines after the grid compute `Spec.finish` of the two sums of heads: the comparison, the maximum, the quotient and
    the choice are taken at the one index of a rank-zero array. -/
theorem tail_eq (A3 A4 : S2x8x128.Idx → EReal) :
    tail A3 A4 = fun _ => Cert.Spec.finish (Cert.Spec.z + (A3 (ix3 0 0 0) + A3 (ix3 1 0 0)))
      (Cert.Spec.z + (A4 (ix3 0 0 0) + A4 (ix3 1 0 0))) := by
  funext j
  unfold tail Cert.Spec.finish
  show Scalar.select (Ideal.cmp .ogt (total A4 j) Cert.Spec.z) (Ideal.div (total A3 j) (max (total A4 j) Cert.Spec.one)) Cert.Spec.z = _
  rw [total_apply, total_apply]

/-! ## The run -/

variable (m : (ℓ : Loc nD τ sig) → Buf (Elt Ideal) ℓ)

/-- What the lines after the grid leave in the result buffer: `tail` of the two arrays the grid leaves. -/
theorem afterTail_v11 (c : Dev nD) :
    (Pipeline.afterTail₀ cfgs (dats m) 0 (V0 m) [hostOps1, hostOps1_1] c main_v11 : S_.Idx → EReal)
      = tail ((dats m 0 c).arrAt 3 cfg0.N) ((dats m 0 c).arrAt 4 cfg0.N) := by
  unfold Pipeline.afterTail₀
  simp only [Gen.hostOps1, Gen.hostOps1_1, List.flatten_cons, List.flatten_nil, List.append_nil, List.cons_append,
    List.nil_append]
  open Idealize.ShloMosaic.StableHlo in after_results
  exact congrArg₂ tail
    (Pipeline.withArrays_arr spec0 launch0.win.arr_inj c (V0 m c) (fun w => (dats m 0 c).arrAt w cfg0.N) 3)
    (Pipeline.withArrays_arr spec0 launch0.win.arr_inj c (V0 m c) (fun w => (dats m 0 c).arrAt w cfg0.N) 4)

/-- The result buffer after the lines after the grid, in the arguments. -/
theorem afterTail_v11_eq (c : Dev nD) :
    (Pipeline.afterTail₀ cfgs (dats m) 0 (V0 m) [hostOps1, hostOps1_1] c main_v11 : S_.Idx → EReal)
      = fun _ => Cert.Spec.tiled (Sarr m c) (Carr m c) (Larr m c) := by
  rw [afterTail_v11, tail_eq, final3, final4]
  rfl

/-- At the compiled mesh, from any memory with zero counters: every weakly fair execution of the kernel program
    terminates with the result buffer at `Spec.tiled` of the three argument arrays, and the argument arrays unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v11) = (fun _ => Cert.Spec.tiled (Sarr m c) (Carr m c) (Larr m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v11 (Pipeline.mem_restRefs_of main_v11 (by decide) (by decide))).trans (afterTail_v11_eq m c),
      ((h c).1 0).trans (((dats m 0 c).arrAt_in 0 rfl _).trans ((A_eq m c 0).trans (V_main_arg0 m c))),
      (((h c).2 main_arg1 (Pipeline.mem_restRefs_of main_arg1 (by decide) (by decide))).trans (W_main_arg1 m (dats m) c)),
      ((h c).1 1).trans (((dats m 0 c).arrAt_in 1 rfl _).trans ((A_eq m c 1).trans (V_main_arg2 m c)))⟩)
    (run_main m ρ)

end Cert.KernelIdeal.Run

end
-- ==== Proof.RefRunH.lean ====
import proofs.«158513_j39041252721038_1_alg».proof.Proof.RefRead
import Idealize.ShloMosaic.Lib.StableHlo.Run

/-!
The reference program's run: its `@main` is a straight line of 73 host operations (the outlined selects written at
their call sites), so every weakly fair execution terminates with each buffer at the operations' composed value of
the argument arrays; the result buffer's composed value is the last stage of the read-at-an-index module, and the
three argument arrays are never written.
-/

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

/-- @main's 73 operations, in order (an outlined select's three operations stand in its call's place). -/
abbrev ops : List (HloOp τ sig (Elt F)) :=
  [ nullary main_v0 (iotaInDim S2048 32 0),
    unary main_v0 main_v1 (broadcastInDim S1x2048 ![1] bcast_S2048_S1x2048_1 : (⟨S2048, .i32⟩ : BufTy).Contents (Elt F) → (⟨S1x2048, .i32⟩ : BufTy).Contents (Elt F)),
    unary main_arg1 main_v2 (broadcastInDim S32768x1 ![0] bcast_S32768_S32768x1_0 : (⟨S32768, .i32⟩ : BufTy).Contents (Elt F) → (⟨S32768x1, .i32⟩ : BufTy).Contents (Elt F)),
    unary main_v1 main_v3 (broadcastInDim S32768x2048 ![0, 1] bcast_S1x2048_S32768x2048_0_1 : (⟨S1x2048, .i32⟩ : BufTy).Contents (Elt F) → (⟨S32768x2048, .i32⟩ : BufTy).Contents (Elt F)),
    unary main_v2 main_v4 (broadcastInDim S32768x2048 ![0, 1] bcast_S32768x1_S32768x2048_0_1 : (⟨S32768x1, .i32⟩ : BufTy).Contents (Elt F) → (⟨S32768x2048, .i32⟩ : BufTy).Contents (Elt F)),
    binary main_v3 main_v4 main_v5 (cmpi .slt : (⟨S32768x2048, .i32⟩ : BufTy).Contents (Elt F) → (⟨S32768x2048, .i32⟩ : BufTy).Contents (Elt F) → (⟨S32768x2048, .i1⟩ : BufTy).Contents (Elt F)),
    nullary main_c (constantI S_ 32 1#32),
    unary main_c main_v6 (broadcastInDim S32768x2048 ![] bcast_S_S32768x2048 : (⟨S_, .i32⟩ : BufTy).Contents (Elt F) → (⟨S32768x2048, .i32⟩ : BufTy).Contents (Elt F)),
    binary main_arg2 main_v6 main_v7 (cmpi .eq : (⟨S32768x2048, .i32⟩ : BufTy).Contents (Elt F) → (⟨S32768x2048, .i32⟩ : BufTy).Contents (Elt F) → (⟨S32768x2048, .i1⟩ : BufTy).Contents (Elt F)),
    binary main_v7 main_v5 main_v8 (andi : (⟨S32768x2048, .i1⟩ : BufTy).Contents (Elt F) → (⟨S32768x2048, .i1⟩ : BufTy).Contents (Elt F) → (⟨S32768x2048, .i1⟩ : BufTy).Contents (Elt F)),
    nullary main_c_0 (constantI S_ 32 0#32),
    unary main_c_0 main_v9 (broadcastInDim S32768x2048 ![] bcast_S_S32768x2048 : (⟨S_, .i32⟩ : BufTy).Contents (Elt F) → (⟨S32768x2048, .i32⟩ : BufTy).Contents (Elt F)),
    binary main_arg2 main_v9 main_v10 (cmpi .eq : (⟨S32768x2048, .i32⟩ : BufTy).Contents (Elt F) → (⟨S32768x2048, .i32⟩ : BufTy).Contents (Elt F) → (⟨S32768x2048, .i1⟩ : BufTy).Contents (Elt F)),
    binary main_v10 main_v5 main_v11 (andi : (⟨S32768x2048, .i1⟩ : BufTy).Contents (Elt F) → (⟨S32768x2048, .i1⟩ : BufTy).Contents (Elt F) → (⟨S32768x2048, .i1⟩ : BufTy).Contents (Elt F)),
    nullary main_c_1 (constantI S_ 1 0#1),
    binary main_v8 main_c_1 main_v12 ((fun x v => Host.reduce IntOp.ori x v reducesTo_S32768x2048_S32768_d1 h_S_) : (⟨S32768x2048, .i1⟩ : BufTy).Contents (Elt F) → (⟨S_, .i1⟩ : BufTy).Contents (Elt F) → (⟨S32768, .i1⟩ : BufTy).Contents (Elt F)),
    nullary main_c_2 (constantI S_ 1 0#1),
    binary main_v11 main_c_2 main_v13 ((fun x v => Host.reduce IntOp.ori x v reducesTo_S32768x2048_S32768_d1 h_S_) : (⟨S32768x2048, .i1⟩ : BufTy).Contents (Elt F) → (⟨S_, .i1⟩ : BufTy).Contents (Elt F) → (⟨S32768, .i1⟩ : BufTy).Contents (Elt F)),
    nullary main_cst (constant S_ .f32 0x00000000#32),
    unary main_cst main_call0_v0 ((id) : (⟨S_, .f32⟩ : BufTy).Contents (Elt F) → (⟨S_, .f32⟩ : BufTy).Contents (Elt F)),
    unary main_call0_v0 main_call0_v1 (((broadcastInDim S32768x2048 ![] bcast_S_S32768x2048)) : (⟨S_, .f32⟩ : BufTy).Contents (Elt F) → (⟨S32768x2048, .f32⟩ : BufTy).Contents (Elt F)),
    ternary main_v8 main_arg0 main_call0_v1 main_v14 ((select) : (⟨S32768x2048, .i1⟩ : BufTy).Contents (Elt F) → (⟨S32768x2048, .f32⟩ : BufTy).Contents (Elt F) → (⟨S32768x2048, .f32⟩ : BufTy).Contents (Elt F) → (⟨S32768x2048, .f32⟩ : BufTy).Contents (Elt F)),
    nullary main_cst_3 (constant S_ .f32 0x00000000#32),
    binary main_v14 main_cst_3 main_v15 ((fun x v => Host.reduceAdd x v reducesTo_S32768x2048_S32768_d1 h_S_) : (⟨S32768x2048, .f32⟩ : BufTy).Contents (Elt F) → (⟨S_, .f32⟩ : BufTy).Contents (Elt F) → (⟨S32768, .f32⟩ : BufTy).Contents (Elt F)),
    nullary main_cst_4 (constant S_ .f32 0xBDCCCCCD#32),
    unary main_cst_4 main_call1_v0 ((id) : (⟨S_, .f32⟩ : BufTy).Contents (Elt F) → (⟨S_, .f32⟩ : BufTy).Contents (Elt F)),
    unary main_call1_v0 main_call1_v1 (((broadcastInDim S32768 ![] bcast_S_S32768)) : (⟨S_, .f32⟩ : BufTy).Contents (Elt F) → (⟨S32768, .f32⟩ : BufTy).Contents (Elt F)),
    ternary main_v12 main_v15 main_call1_v1 main_v16 ((select) : (⟨S32768, .i1⟩ : BufTy).Contents (Elt F) → (⟨S32768, .f32⟩ : BufTy).Contents (Elt F) → (⟨S32768, .f32⟩ : BufTy).Contents (Elt F) → (⟨S32768, .f32⟩ : BufTy).Contents (Elt F)),
    nullary main_cst_5 (constant S_ .f32 0x3DCCCCCD#32),
    unary main_cst_5 main_v17 (broadcastInDim S32768x2048 ![] bcast_S_S32768x2048 : (⟨S_, .f32⟩ : BufTy).Contents (Elt F) → (⟨S32768x2048, .f32⟩ : BufTy).Contents (Elt F)),
    binary main_v17 main_arg0 main_v18 (addf : (⟨S32768x2048, .f32⟩ : BufTy).Contents (Elt F) → (⟨S32768x2048, .f32⟩ : BufTy).Contents (Elt F) → (⟨S32768x2048, .f32⟩ : BufTy).Contents (Elt F)),
    unary main_v16 main_v19 (broadcastInDim S32768x1 ![0] bcast_S32768_S32768x1_0 : (⟨S32768, .f32⟩ : BufTy).Contents (Elt F) → (⟨S32768x1, .f32⟩ : BufTy).Contents (Elt F)),
    unary main_v19 main_v20 (broadcastInDim S32768x2048 ![0, 1] bcast_S32768x1_S32768x2048_0_1 : (⟨S32768x1, .f32⟩ : BufTy).Contents (Elt F) → (⟨S32768x2048, .f32⟩ : BufTy).Contents (Elt F)),
    binary main_v18 main_v20 main_v21 (subf : (⟨S32768x2048, .f32⟩ : BufTy).Contents (Elt F) → (⟨S32768x2048, .f32⟩ : BufTy).Contents (Elt F) → (⟨S32768x2048, .f32⟩ : BufTy).Contents (Elt F)),
    nullary main_cst_6 (constant S_ .f32 0x00000000#32),
    unary main_cst_6 main_v22 (broadcastInDim S32768x2048 ![] bcast_S_S32768x2048 : (⟨S_, .f32⟩ : BufTy).Contents (Elt F) → (⟨S32768x2048, .f32⟩ : BufTy).Contents (Elt F)),
    binary main_v21 main_v22 main_v23 (maximumf : (⟨S32768x2048, .f32⟩ : BufTy).Contents (Elt F) → (⟨S32768x2048, .f32⟩ : BufTy).Contents (Elt F) → (⟨S32768x2048, .f32⟩ : BufTy).Contents (Elt F)),
    unary main_v11 main_v24 ((extui 32 · natLt_1_32) : (⟨S32768x2048, .i1⟩ : BufTy).Contents (Elt F) → (⟨S32768x2048, .i32⟩ : BufTy).Contents (Elt F)),
    nullary main_c_7 (constantI S_ 32 0#32),
    binary main_v24 main_c_7 main_v25 ((fun x v => Host.reduce IntOp.addi x v reducesTo_S32768x2048_S32768_d1 h_S_) : (⟨S32768x2048, .i32⟩ : BufTy).Contents (Elt F) → (⟨S_, .i32⟩ : BufTy).Contents (Elt F) → (⟨S32768, .i32⟩ : BufTy).Contents (Elt F)),
    nullary main_cst_8 (constant S_ .f32 0x00000000#32),
    unary main_cst_8 main_call2_v0 ((id) : (⟨S_, .f32⟩ : BufTy).Contents (Elt F) → (⟨S_, .f32⟩ : BufTy).Contents (Elt F)),
    unary main_call2_v0 main_call2_v1 (((broadcastInDim S32768x2048 ![] bcast_S_S32768x2048)) : (⟨S_, .f32⟩ : BufTy).Contents (Elt F) → (⟨S32768x2048, .f32⟩ : BufTy).Contents (Elt F)),
    ternary main_v11 main_v23 main_call2_v1 main_v26 ((select) : (⟨S32768x2048, .i1⟩ : BufTy).Contents (Elt F) → (⟨S32768x2048, .f32⟩ : BufTy).Contents (Elt F) → (⟨S32768x2048, .f32⟩ : BufTy).Contents (Elt F) → (⟨S32768x2048, .f32⟩ : BufTy).Contents (Elt F)),
    nullary main_cst_9 (constant S_ .f32 0x00000000#32),
    binary main_v26 main_cst_9 main_v27 ((fun x v => Host.reduceAdd x v reducesTo_S32768x2048_S32768_d1 h_S_) : (⟨S32768x2048, .f32⟩ : BufTy).Contents (Elt F) → (⟨S_, .f32⟩ : BufTy).Contents (Elt F) → (⟨S32768, .f32⟩ : BufTy).Contents (Elt F)),
    nullary main_c_10 (constantI S_ 32 1#32),
    unary main_c_10 main_v28 (broadcastInDim S32768 ![] bcast_S_S32768 : (⟨S_, .i32⟩ : BufTy).Contents (Elt F) → (⟨S32768, .i32⟩ : BufTy).Contents (Elt F)),
    binary main_v25 main_v28 main_v29 (maxsi : (⟨S32768, .i32⟩ : BufTy).Contents (Elt F) → (⟨S32768, .i32⟩ : BufTy).Contents (Elt F) → (⟨S32768, .i32⟩ : BufTy).Contents (Elt F)),
    unary main_v29 main_v30 (sitofp .f32 : (⟨S32768, .i32⟩ : BufTy).Contents (Elt F) → (⟨S32768, .f32⟩ : BufTy).Contents (Elt F)),
    binary main_v27 main_v30 main_v31 (Host.divf : (⟨S32768, .f32⟩ : BufTy).Contents (Elt F) → (⟨S32768, .f32⟩ : BufTy).Contents (Elt F) → (⟨S32768, .f32⟩ : BufTy).Contents (Elt F)),
    nullary main_c_11 (constantI S_ 32 0#32),
    unary main_c_11 main_v32 (broadcastInDim S32768 ![] bcast_S_S32768 : (⟨S_, .i32⟩ : BufTy).Contents (Elt F) → (⟨S32768, .i32⟩ : BufTy).Contents (Elt F)),
    binary main_arg1 main_v32 main_v33 (cmpi .sgt : (⟨S32768, .i32⟩ : BufTy).Contents (Elt F) → (⟨S32768, .i32⟩ : BufTy).Contents (Elt F) → (⟨S32768, .i1⟩ : BufTy).Contents (Elt F)),
    binary main_v33 main_v13 main_v34 (andi : (⟨S32768, .i1⟩ : BufTy).Contents (Elt F) → (⟨S32768, .i1⟩ : BufTy).Contents (Elt F) → (⟨S32768, .i1⟩ : BufTy).Contents (Elt F)),
    unary main_v34 main_v35 ((extui 32 · natLt_1_32) : (⟨S32768, .i1⟩ : BufTy).Contents (Elt F) → (⟨S32768, .i32⟩ : BufTy).Contents (Elt F)),
    nullary main_c_12 (constantI S_ 32 0#32),
    binary main_v35 main_c_12 main_v36 ((fun x v => Host.reduce IntOp.addi x v reducesTo_S32768_S_d0 h_S_) : (⟨S32768, .i32⟩ : BufTy).Contents (Elt F) → (⟨S_, .i32⟩ : BufTy).Contents (Elt F) → (⟨S_, .i32⟩ : BufTy).Contents (Elt F)),
    unary main_v36 main_v37 (sitofp .f32 : (⟨S_, .i32⟩ : BufTy).Contents (Elt F) → (⟨S_, .f32⟩ : BufTy).Contents (Elt F)),
    nullary main_cst_13 (constant S_ .f32 0x00000000#32),
    unary main_cst_13 main_call3_v0 ((id) : (⟨S_, .f32⟩ : BufTy).Contents (Elt F) → (⟨S_, .f32⟩ : BufTy).Contents (Elt F)),
    unary main_call3_v0 main_call3_v1 (((broadcastInDim S32768 ![] bcast_S_S32768)) : (⟨S_, .f32⟩ : BufTy).Contents (Elt F) → (⟨S32768, .f32⟩ : BufTy).Contents (Elt F)),
    ternary main_v34 main_v31 main_call3_v1 main_v38 ((select) : (⟨S32768, .i1⟩ : BufTy).Contents (Elt F) → (⟨S32768, .f32⟩ : BufTy).Contents (Elt F) → (⟨S32768, .f32⟩ : BufTy).Contents (Elt F) → (⟨S32768, .f32⟩ : BufTy).Contents (Elt F)),
    nullary main_cst_14 (constant S_ .f32 0x00000000#32),
    binary main_v38 main_cst_14 main_v39 ((fun x v => Host.reduceAdd x v reducesTo_S32768_S_d0 h_S_) : (⟨S32768, .f32⟩ : BufTy).Contents (Elt F) → (⟨S_, .f32⟩ : BufTy).Contents (Elt F) → (⟨S_, .f32⟩ : BufTy).Contents (Elt F)),
    nullary main_cst_15 (constant S_ .f32 0x00000000#32),
    binary main_v37 main_cst_15 main_v40 (cmpf .ogt : (⟨S_, .f32⟩ : BufTy).Contents (Elt F) → (⟨S_, .f32⟩ : BufTy).Contents (Elt F) → (⟨S_, .i1⟩ : BufTy).Contents (Elt F)),
    nullary main_cst_16 (constant S_ .f32 0x3F800000#32),
    binary main_v37 main_cst_16 main_v41 (maximumf : (⟨S_, .f32⟩ : BufTy).Contents (Elt F) → (⟨S_, .f32⟩ : BufTy).Contents (Elt F) → (⟨S_, .f32⟩ : BufTy).Contents (Elt F)),
    binary main_v39 main_v41 main_v42 (Host.divf : (⟨S_, .f32⟩ : BufTy).Contents (Elt F) → (⟨S_, .f32⟩ : BufTy).Contents (Elt F) → (⟨S_, .f32⟩ : BufTy).Contents (Elt F)),
    nullary main_cst_17 (constant S_ .f32 0x00000000#32),
    unary main_cst_17 main_call4_v0 ((id) : (⟨S_, .f32⟩ : BufTy).Contents (Elt F) → (⟨S_, .f32⟩ : BufTy).Contents (Elt F)),
    ternary main_v40 main_v42 main_call4_v0 main_v43 ((select) : (⟨S_, .i1⟩ : BufTy).Contents (Elt F) → (⟨S_, .f32⟩ : BufTy).Contents (Elt F) → (⟨S_, .f32⟩ : BufTy).Contents (Elt F) → (⟨S_, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., unary_bufs_sub .., unary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., binary_bufs_sub .., nullary_bufs_sub .., binary_bufs_sub .., nullary_bufs_sub .., unary_bufs_sub .., unary_bufs_sub .., ternary_bufs_sub .., nullary_bufs_sub .., binary_bufs_sub .., nullary_bufs_sub .., unary_bufs_sub .., unary_bufs_sub .., ternary_bufs_sub .., nullary_bufs_sub .., unary_bufs_sub .., binary_bufs_sub .., unary_bufs_sub .., unary_bufs_sub .., binary_bufs_sub .., nullary_bufs_sub .., unary_bufs_sub .., binary_bufs_sub .., unary_bufs_sub .., nullary_bufs_sub .., binary_bufs_sub .., nullary_bufs_sub .., unary_bufs_sub .., unary_bufs_sub .., ternary_bufs_sub .., nullary_bufs_sub .., binary_bufs_sub .., nullary_bufs_sub .., unary_bufs_sub .., binary_bufs_sub .., unary_bufs_sub .., binary_bufs_sub .., nullary_bufs_sub .., unary_bufs_sub .., binary_bufs_sub .., binary_bufs_sub .., unary_bufs_sub .., nullary_bufs_sub .., binary_bufs_sub .., unary_bufs_sub .., nullary_bufs_sub .., unary_bufs_sub .., unary_bufs_sub .., ternary_bufs_sub .., nullary_bufs_sub .., binary_bufs_sub .., nullary_bufs_sub .., binary_bufs_sub .., nullary_bufs_sub .., binary_bufs_sub .., binary_bufs_sub .., nullary_bufs_sub .., unary_bufs_sub .., ternary_bufs_sub ..⟩

set_option maxRecDepth 8192 in
set_option maxHeartbeats 4000000 in
/-- The three argument arrays are written by no operation. -/
theorem args_eq (V : Valuation τ sig (Elt F)) :
    after ops V (Proc.devRef .tc main_arg0) = V (Proc.devRef .tc main_arg0)
    ∧ after ops V (Proc.devRef .tc main_arg1) = V (Proc.devRef .tc main_arg1)
    ∧ after ops V (Proc.devRef .tc main_arg2) = V (Proc.devRef .tc main_arg2) := by
  refine ⟨?_, ?_, ?_⟩ <;> after_results_simp

set_option maxRecDepth 8192 in
set_option maxHeartbeats 8000000 in
set_option pp.deepTerms false in
set_option pp.maxSteps 4000 in
/-- The result buffer ends at the last stage: the operations' values composed, stage by stage. -/
theorem out_eq (V : Valuation τ sig (Elt F)) :
    after ops V (Proc.devRef .tc main_v43)
      = ReadP.val_main_v43 (F := F) (V (Proc.devRef .tc main_arg0)) (V (Proc.devRef .tc main_arg1)) (V (Proc.devRef .tc main_arg2)) := by
  after_results_simp
  simp only [ReadP.val_main_v0, ReadP.val_main_v1, ReadP.val_main_v2, ReadP.val_main_v3, ReadP.val_main_v4, ReadP.val_main_v5, ReadP.val_main_c, ReadP.val_main_v6, ReadP.val_main_v7, ReadP.val_main_v8, ReadP.val_main_c_0, ReadP.val_main_v9, ReadP.val_main_v10, ReadP.val_main_v11, ReadP.val_main_c_1, ReadP.val_main_v12, ReadP.val_main_c_2, ReadP.val_main_v13, ReadP.val_main_cst, ReadP.val_main_call0_v0, ReadP.val_main_call0_v1, ReadP.val_main_v14, ReadP.val_main_cst_3, ReadP.val_main_v15, ReadP.val_main_cst_4, ReadP.val_main_call1_v0, ReadP.val_main_call1_v1, ReadP.val_main_v16, ReadP.val_main_cst_5, ReadP.val_main_v17, ReadP.val_main_v18, ReadP.val_main_v19, ReadP.val_main_v20, ReadP.val_main_v21, ReadP.val_main_cst_6, ReadP.val_main_v22, ReadP.val_main_v23, ReadP.val_main_v24, ReadP.val_main_c_7, ReadP.val_main_v25, ReadP.val_main_cst_8, ReadP.val_main_call2_v0, ReadP.val_main_call2_v1, ReadP.val_main_v26, ReadP.val_main_cst_9, ReadP.val_main_v27, ReadP.val_main_c_10, ReadP.val_main_v28, ReadP.val_main_v29, ReadP.val_main_v30, ReadP.val_main_v31, ReadP.val_main_c_11, ReadP.val_main_v32, ReadP.val_main_v33, ReadP.val_main_v34, ReadP.val_main_v35, ReadP.val_main_c_12, ReadP.val_main_v36, ReadP.val_main_v37, ReadP.val_main_cst_13, ReadP.val_main_call3_v0, ReadP.val_main_call3_v1, ReadP.val_main_v38, ReadP.val_main_cst_14, ReadP.val_main_v39, ReadP.val_main_cst_15, ReadP.val_main_v40, ReadP.val_main_cst_16, ReadP.val_main_v41, ReadP.val_main_v42, ReadP.val_main_cst_17, ReadP.val_main_call4_v0, ReadP.val_main_v43]

/-- On every device, for any float values, from any memory with zero counters: every weakly fair execution of @main
    terminates with the result at the last stage of the argument arrays and the argument arrays unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v43)
          = ReadP.val_main_v43 (F := F) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v43).trans (out_eq _),
      (h c main_arg0).trans (args_eq _).1,
      (h c main_arg1).trans (args_eq _).2.1,
      (h c main_arg2).trans (args_eq _).2.2⟩)
    (run_seq scopedRefs_eq scopedSems_eq defs main (fun _ => ops) main_eq (fun _ => ops_sub) m ρ)

end Cert.ReferenceIdeal.RunH

end
-- ==== Proof.RefValue.lean ====
import proofs.«158513_j39041252721038_1_alg».proof.Proof.RefRead
import proofs.«158513_j39041252721038_1_alg».proof.Proof.Spec
import Idealize.ShloMosaic.Lib.ValueIdx
import Idealize.ShloMosaic.PureOps.Ideal.Laws
import Idealize.ShloMosaic.PureOps.Reduce

/-!
The reference program's result is the flat spelling of the ranking hinge loss (`Cert.Spec.flat`) of its three
argument arrays, read by coordinates: scores `x0 (ix2 r l)`, lengths `x1 (ix1 r)`, labels `x2 (ix2 r l)`.

The proof reads the program one array at a time, from the arguments up: the valid lanes, the positive and the
negative masks, "some positive" and "some negative" per row, the sum of the positive scores, the chosen score,
the hinge, the count of negatives, the per-row mean, whether a row contributes, and the two totals.
-/

noncomputable section

open scoped BigOperators

namespace Cert.ReferenceIdeal.RefValue

open Cert.ReferenceIdeal Cert.ReferenceIdeal.ReadP Idealize.ShloMosaic Idealize.ShloMosaic.ValueIdx

/-! ### Indices -/

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- Likewise a fold of a commutative and associative operation over it is the fold over the coordinate. -/
theorem fold_idx1 {β : Type} (op : β → β → β) [Std.Commutative op] [Std.Associative op] {n : Nat} (b : β)
    (f : (⟨1, ![n]⟩ : Shape).Idx → β) :
    (Finset.univ : Finset (⟨1, ![n]⟩ : Shape).Idx).fold op b f
      = (Finset.univ : Finset (Fin n)).fold op b (fun a => f (ix1 a)) := by
  have h := Finset.fold_map (op := op) (b := b) (f := f) (g := (idxEquiv1 (n := n)).symm.toEmbedding)
    (s := Finset.univ)
  rw [Finset.univ_map_equiv_to_embedding] at h
  exact h

/-- A host reduction of a rank-1 array over its one axis, into a scalar, folds over all the coordinates: every
    index drops to the scalar's one index. -/
theorem reduce_all1 {β : Type} (f : β → β → β) [Std.Commutative f] [Std.Associative f] {n : Nat}
    (x : (⟨1, ![n]⟩ : Shape).Idx → β) (init : S_.Idx → β) (h' : (⟨1, ![n]⟩ : Shape).ReducesTo [0] S_)
    (hu : 0 < S_.numel) (j : S_.Idx) :
    Host.reduce f x init h' hu j
      = (Finset.univ : Finset (Fin n)).fold f (init (Shape.Idx.first hu)) (fun a => x (ix1 a)) := by
  rw [Host.reduce_eq_fold, Finset.filter_true_of_mem]
  · exact fold_idx1 f _ x
  · intro i _; exact funext fun b => b.elim0

/-- The row of a lane's index, through the two broadcasts of a per-row array. -/
theorem idx_row_i (r : Fin 32768) (l : Fin 2048) : idx_main_v2 (idx_main_v4 (ix2 r l)) = ix1 r := by
  funext a; match a with | ⟨0, _⟩ => rfl
theorem idx_row_f (r : Fin 32768) (l : Fin 2048) : idx_main_v19 (idx_main_v20 (ix2 r l)) = ix1 r := by
  funext a; match a with | ⟨0, _⟩ => rfl
/-- The index a lane sum reads at coordinate `k` of row `r`. -/
theorem idx_sum15 (r : Fin 32768) (k : Fin 2048) : idx_main_v15 (ix1 r) k = ix2 r k := by
  funext a; match a with | ⟨0, _⟩ => rfl | ⟨1, _⟩ => rfl
theorem idx_sum27 (r : Fin 32768) (k : Fin 2048) : idx_main_v27 (ix1 r) k = ix2 r k := by
  funext a; match a with | ⟨0, _⟩ => rfl | ⟨1, _⟩ => rfl
/-- A row index with the lane coordinate inserted is the lane's index. -/
theorem lift_lane (h : S32768x2048.Reduces [1] S32768) (r : Fin 32768) (k : Fin 2048) :
    h.lift (ix1 r) k = ix2 r k := by
  funext a; exact Fin.ext (by match a with | ⟨0, _⟩ => rfl | ⟨1, _⟩ => rfl)

section Arrays

variable (x0 : (⟨S32768x2048, .f32⟩ : BufTy).Contents (Elt Ideal)) (x1 : (⟨S32768, .i32⟩ : BufTy).Contents (Elt Ideal))
  (x2 : (⟨S32768x2048, .i32⟩ : BufTy).Contents (Elt Ideal))

/-! ### Per lane: the masks -/

/-- Lane `l` of row `r` is valid when `l` is below the row's length. -/
theorem valid_at (r : Fin 32768) (l : Fin 2048) :
    val_main_v5 (F := Ideal) x1 (ix2 r l) = Cert.Spec.vld (x1 (ix1 r)) l := by
  rw [val_main_v5_apply, val_main_v3_apply, val_main_v1_apply, val_main_v0_apply, val_main_v4_apply,
    val_main_v2_apply, idx_row_i]
  rfl

/-- The positive mask. -/
theorem pos_at (r : Fin 32768) (l : Fin 2048) :
    val_main_v8 (F := Ideal) x1 x2 (ix2 r l) = Cert.Spec.posb (x1 (ix1 r)) (fun l => x2 (ix2 r l)) l := by
  rw [val_main_v8_apply, val_main_v7_apply, val_main_v6_apply, val_main_c_apply, valid_at]
  rfl

/-- The negative mask. -/
theorem neg_at (r : Fin 32768) (l : Fin 2048) :
    val_main_v11 (F := Ideal) x1 x2 (ix2 r l) = Cert.Spec.negb (x1 (ix1 r)) (fun l => x2 (ix2 r l)) l := by
  rw [val_main_v11_apply, val_main_v10_apply, val_main_v9_apply, val_main_c_0_apply, valid_at]
  rfl

/-! ### Per row: some positive, some negative -/

/-- "The row has a positive": the disjunction of the positive mask over the lanes. -/
theorem hasPos_at (r : Fin 32768) :
    val_main_v12 (F := Ideal) x1 x2 (ix1 r) = Cert.Spec.anyOr (Cert.Spec.posb (x1 (ix1 r)) (fun l => x2 (ix2 r l))) := by
  unfold val_main_v12
  refine (Host.reduce_eq_fold_single IntOp.ori _ _ _ (by decide) _ _).trans ?_
  unfold Cert.Spec.anyOr
  refine Finset.fold_congr (fun (k : Fin 2048) _ => ?_)
  exact (congrArg (val_main_v8 (F := Ideal) x1 x2) (lift_lane _ r k)).trans (pos_at x1 x2 r k)

/-- "The row has a negative": the disjunction of the negative mask over the lanes. -/
theorem hasNeg_at (r : Fin 32768) :
    val_main_v13 (F := Ideal) x1 x2 (ix1 r) = Cert.Spec.anyOr (Cert.Spec.negb (x1 (ix1 r)) (fun l => x2 (ix2 r l))) := by
  unfold val_main_v13
  refine (Host.reduce_eq_fold_single IntOp.ori _ _ _ (by decide) _ _).trans ?_
  unfold Cert.Spec.anyOr
  refine Finset.fold_congr (fun (k : Fin 2048) _ => ?_)
  exact (congrArg (val_main_v11 (F := Ideal) x1 x2) (lift_lane _ r k)).trans (neg_at x1 x2 r k)

/-! ### The chosen score -/

/-- The positive scores, other lanes zero. -/
theorem posScore_at (r : Fin 32768) (l : Fin 2048) :
    val_main_v14 (F := Ideal) x0 x1 x2 (ix2 r l)
      = Scalar.select (Cert.Spec.posb (x1 (ix1 r)) (fun l => x2 (ix2 r l)) l) (x0 (ix2 r l)) Cert.Spec.z := by
  rw [val_main_v14_apply, val_main_call0_v1_apply, val_main_call0_v0_apply, val_main_cst_apply, pos_at]
  rfl

/-- Their sum over the row, from the literal zero. -/
theorem posSum_at (r : Fin 32768) :
    val_main_v15 (F := Ideal) x0 x1 x2 (ix1 r)
      = Cert.Spec.z + Cert.Spec.posSum (x1 (ix1 r)) (fun l => x0 (ix2 r l)) (fun l => x2 (ix2 r l)) := by
  rw [val_main_v15_apply, val_main_cst_3_apply]
  unfold Cert.Spec.posSum
  refine congrArg (_ + ·) (Finset.sum_congr rfl fun k _ => ?_)
  rw [idx_sum15, posScore_at]

/-- The chosen score: that sum when the row has a positive, minus the margin otherwise. -/
abbrev chosen (r : Fin 32768) : EReal :=
  Scalar.select (Cert.Spec.anyOr (Cert.Spec.posb (x1 (ix1 r)) (fun l => x2 (ix2 r l))))
    (Cert.Spec.z + Cert.Spec.posSum (x1 (ix1 r)) (fun l => x0 (ix2 r l)) (fun l => x2 (ix2 r l))) Cert.Spec.nmrg

theorem chosen_at (r : Fin 32768) :
    val_main_v16 (F := Ideal) x0 x1 x2 (ix1 r) = chosen x0 x1 x2 r := by
  rw [val_main_v16_apply, val_main_call1_v1_apply, val_main_call1_v0_apply, val_main_cst_4_apply, hasPos_at, posSum_at]
  rfl

/-! ### The hinge and the per-row mean -/

/-- The hinge of a lane: the margin plus the score minus the chosen score, floored at zero. -/
theorem hinge_at (r : Fin 32768) (l : Fin 2048) :
    val_main_v23 (F := Ideal) x0 x1 x2 (ix2 r l)
      = max ((Cert.Spec.mrg + x0 (ix2 r l)) - chosen x0 x1 x2 r) Cert.Spec.z := by
  rw [val_main_v23_apply, val_main_v21_apply, val_main_v18_apply, val_main_v17_apply, val_main_cst_5_apply,
    val_main_v20_apply, val_main_v19_apply, idx_row_f, chosen_at, val_main_v22_apply, val_main_cst_6_apply]
  rfl

/-- The negatives' hinges, other lanes zero. -/
theorem negHinge_at (r : Fin 32768) (l : Fin 2048) :
    val_main_v26 (F := Ideal) x0 x1 x2 (ix2 r l)
      = Scalar.select (Cert.Spec.negb (x1 (ix1 r)) (fun l => x2 (ix2 r l)) l)
          (max ((Cert.Spec.mrg + x0 (ix2 r l)) - chosen x0 x1 x2 r) Cert.Spec.z) Cert.Spec.z := by
  rw [val_main_v26_apply, val_main_call2_v1_apply, val_main_call2_v0_apply, val_main_cst_8_apply, neg_at, hinge_at]
  rfl

/-- Their sum over the row, from the literal zero. -/
theorem hingeSum_at (r : Fin 32768) :
    val_main_v27 (F := Ideal) x0 x1 x2 (ix1 r)
      = Cert.Spec.z + Cert.Spec.hingeSum (chosen x0 x1 x2 r) (x1 (ix1 r)) (fun l => x0 (ix2 r l)) (fun l => x2 (ix2 r l)) := by
  rw [val_main_v27_apply, val_main_cst_9_apply]
  unfold Cert.Spec.hingeSum
  refine congrArg (_ + ·) (Finset.sum_congr rfl fun k _ => ?_)
  rw [idx_sum27, negHinge_at]

/-- The number of negatives of a row, counted in 32-bit integers. -/
theorem negCount_at (r : Fin 32768) :
    val_main_v25 (F := Ideal) x1 x2 (ix1 r)
      = (Finset.univ : Finset (Fin 2048)).fold IntOp.addi 0#32
          (fun l => (Cert.Spec.negb (x1 (ix1 r)) (fun l => x2 (ix2 r l)) l).setWidth 32) := by
  unfold val_main_v25
  refine (Host.reduce_eq_fold_single IntOp.addi _ _ _ (by decide) _ _).trans ?_
  refine Finset.fold_congr (fun (k : Fin 2048) _ => ?_)
  refine (congrArg (val_main_v24 (F := Ideal) x1 x2) (lift_lane _ r k)).trans ?_
  rw [val_main_v24_apply, neg_at]

/-- The per-row mean hinge. -/
theorem mean_at (r : Fin 32768) :
    val_main_v31 (F := Ideal) x0 x1 x2 (ix1 r)
      = Cert.Spec.meanF (x1 (ix1 r)) (fun l => x0 (ix2 r l)) (fun l => x2 (ix2 r l)) := by
  rw [val_main_v31_apply, val_main_v30_apply, val_main_v29_apply, val_main_v28_apply, val_main_c_10_apply,
    hingeSum_at, negCount_at]
  rfl

/-! ### Which rows contribute, and the totals -/

/-- A row contributes when its length is positive and it has a negative. -/
theorem obs_at (r : Fin 32768) :
    val_main_v34 (F := Ideal) x1 x2 (ix1 r) = Cert.Spec.obsF (x1 (ix1 r)) (fun l => x2 (ix2 r l)) := by
  rw [val_main_v34_apply, val_main_v33_apply, val_main_v32_apply, val_main_c_11_apply, hasNeg_at]
  rfl

/-- A row's contribution. -/
theorem contrib_at (r : Fin 32768) :
    val_main_v38 (F := Ideal) x0 x1 x2 (ix1 r)
      = Scalar.select (Cert.Spec.obsF (x1 (ix1 r)) (fun l => x2 (ix2 r l)))
          (Cert.Spec.meanF (x1 (ix1 r)) (fun l => x0 (ix2 r l)) (fun l => x2 (ix2 r l))) Cert.Spec.z := by
  rw [val_main_v38_apply, val_main_call3_v1_apply, val_main_call3_v0_apply, val_main_cst_13_apply, obs_at, mean_at]
  rfl

/-- The total contribution, from the literal zero. -/
theorem total_at (i : S_.Idx) :
    val_main_v39 (F := Ideal) x0 x1 x2 i
      = Cert.Spec.z + ∑ r : Fin 32768, Scalar.select (Cert.Spec.obsF (x1 (ix1 r)) (fun l => x2 (ix2 r l)))
          (Cert.Spec.meanF (x1 (ix1 r)) (fun l => x0 (ix2 r l)) (fun l => x2 (ix2 r l))) Cert.Spec.z := by
  rw [val_main_v39_apply, val_main_cst_14_apply]
  refine congrArg (_ + ·) ?_
  refine (sum_idx1 (n := 32768) _).trans (Finset.sum_congr rfl fun r _ => ?_)
  rw [contrib_at]

/-- The number of contributing rows, counted in 32-bit integers. -/
theorem count_at (i : S_.Idx) :
    val_main_v36 (F := Ideal) x1 x2 i
      = (Finset.univ : Finset (Fin 32768)).fold IntOp.addi 0#32
          (fun r => (Cert.Spec.obsF (x1 (ix1 r)) (fun l => x2 (ix2 r l))).setWidth 32) := by
  unfold val_main_v36
  refine (reduce_all1 IntOp.addi (n := 32768) _ _ _ _ _).trans ?_
  refine Finset.fold_congr (fun (k : Fin 32768) _ => ?_)
  rw [val_main_v35_apply, obs_at]

end Arrays

/-! ### The result -/

/-- The reference program's result is the flat spelling of the loss. -/
theorem ref_eq (x0 : (⟨S32768x2048, .f32⟩ : BufTy).Contents (Elt Ideal)) (x1 : (⟨S32768, .i32⟩ : BufTy).Contents (Elt Ideal)) (x2 : (⟨S32768x2048, .i32⟩ : BufTy).Contents (Elt Ideal)) :
    val_main_v43 (F := Ideal) x0 x1 x2 = fun _ => Cert.Spec.flat (fun r l => x0 (ix2 r l)) (fun r => x1 (ix1 r)) (fun r l => x2 (ix2 r l)) := by
  funext i
  rw [val_main_v43_apply, val_main_v40_apply, val_main_v42_apply, val_main_v41_apply, val_main_v37_apply,
    val_main_call4_v0_apply, val_main_cst_17_apply, val_main_cst_15_apply, val_main_cst_16_apply,
    total_at, count_at]
  unfold Cert.Spec.flat Cert.Spec.finish
  rfl

end Cert.ReferenceIdeal.RefValue

end
-- ==== Proof.lean ====
/-
  The ranking hinge loss as a tiled accumulation against the whole-array form.

  The kernel walks the 32768 rows in 32 blocks of 1024; each block adds to two small accumulator tiles the sum of its
  rows' mean hinge over the negatives and the number of rows that contribute, the tiles being reset at the first block of
  each of two groups of 16; the host then adds the two groups' totals and counts and divides. The reference computes the
  same total and count over all rows at once. Over the extended reals both are one number: addition is commutative and
  associative, "some lane is set" is the same whether decided by a maximum of 0/1 indicators or by a disjunction of bits,
  and a sum of at most 32768 ones is the same whether taken in reals or in 32-bit integers (Proof/SpecLaws.lean).
  No finiteness of the scores is needed: no law used fails at an infinity.

  The frames of the two kernel programs are their generated frame runs; the reference's frame is its run with the result
  dropped; the idealization rewrote nothing.
-/
import proofs.«158513_j39041252721038_1_alg».proof.Defs
import proofs.«158513_j39041252721038_1_alg».proof.Proof.Gen.Kernel
import proofs.«158513_j39041252721038_1_alg».proof.Proof.Gen.Kernel.Skeleton
import proofs.«158513_j39041252721038_1_alg».proof.Proof.Gen.Kernel.Launch
import proofs.«158513_j39041252721038_1_alg».proof.Proof.Gen.Kernel.Points
import proofs.«158513_j39041252721038_1_alg».proof.Proof.Gen.Kernel.Frame
import proofs.«158513_j39041252721038_1_alg».proof.Proof.Gen.KernelIdeal
import proofs.«158513_j39041252721038_1_alg».proof.Proof.Gen.KernelIdeal.Skeleton
import proofs.«158513_j39041252721038_1_alg».proof.Proof.Gen.KernelIdeal.Launch
import proofs.«158513_j39041252721038_1_alg».proof.Proof.Gen.KernelIdeal.Points
import proofs.«158513_j39041252721038_1_alg».proof.Proof.Gen.KernelIdeal.Frame
import proofs.«158513_j39041252721038_1_alg».proof.Proof.Gen.ReferenceIdeal
import proofs.«158513_j39041252721038_1_alg».proof.Proof.Gen.Pre_finite_inputs
import proofs.«158513_j39041252721038_1_alg».proof.Proof.SpecLaws
import proofs.«158513_j39041252721038_1_alg».proof.Proof.KRun
import proofs.«158513_j39041252721038_1_alg».proof.Proof.RefRunH
import proofs.«158513_j39041252721038_1_alg».proof.Proof.RefValue
import Idealize.ShloMosaic.Adequacy
import Idealize.ShloMosaic.Init

noncomputable section

namespace Cert.Proof

open Idealize.ShloMosaic Idealize.SL.Sem Idealize.ShloMosaic.ValueIdx

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.RunH.run (F := Ideal) m ρ)

/-- Both idealized programs end at the ranking hinge loss of arguments that agree: the kernel at its tiled spelling, the
    reference at its flat one, and the two spellings are one extended real. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => (fun _ => Cert.Spec.tiled (Cert.KernelIdeal.Arrays.Sarr m c) (Cert.KernelIdeal.Arrays.Carr m c) (Cert.KernelIdeal.Arrays.Larr m c)),
    Cert.KernelIdeal.Run.run m ρ, ?_⟩
  refine (θ_run Cert.ReferenceIdeal.defs _ _).mono (fun _ h c => ⟨?_, (h c).2⟩) (Cert.ReferenceIdeal.RunH.run (F := Ideal) m' ρ')
  rw [(h c).1, Cert.ReferenceIdeal.RefValue.ref_eq, (hagree c).1, (hagree c).2.1, (hagree c).2.2]
  funext _
  exact (Cert.Spec.tiled_eq_flat _ _ _).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
